-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x1 : Shape := ⟨2, ![200000, 1]⟩
abbrev S2x6400000 : Shape := ⟨2, ![2, 6400000]⟩
abbrev S1x1 : Shape := ⟨2, ![1, 1]⟩
abbrev S1 : Shape := ⟨1, ![1]⟩
abbrev S1x200 : Shape := ⟨2, ![1, 200]⟩
abbrev S200 : Shape := ⟨1, ![200]⟩
abbrev S6x200x200 : Shape := ⟨3, ![6, 200, 200]⟩
abbrev S6x200 : Shape := ⟨2, ![6, 200]⟩
abbrev S200x1 : Shape := ⟨2, ![200, 1]⟩
abbrev S_ : Shape := ⟨0, ![]⟩

class Facts : Prop where
  bcast_S_S200000x1 : S_.BroadcastsInDim S200000x1 (![] : Fin 0 → Fin S200000x1.rank)
  reducesTo_S200000x1_S_d0_1 : S200000x1.ReducesTo [0, 1] S_
  h_S_ : 0 < S_.numel
  bcast_S_S1x1 : S_.BroadcastsInDim S1x1 (![] : Fin 0 → Fin S1x1.rank)
  reducesTo_S1x1_S_d0_1 : S1x1.ReducesTo [0, 1] S_
  bcast_S_S1 : S_.BroadcastsInDim S1 (![] : Fin 0 → Fin S1.rank)
  reducesTo_S1_S_d0 : S1.ReducesTo [0] S_
  bcast_S_S1x200 : S_.BroadcastsInDim S1x200 (![] : Fin 0 → Fin S1x200.rank)
  reducesTo_S1x200_S_d0_1 : S1x200.ReducesTo [0, 1] S_
  bcast_S_S200 : S_.BroadcastsInDim S200 (![] : Fin 0 → Fin S200.rank)
  reducesTo_S200_S_d0 : S200.ReducesTo [0] S_
  bcast_S_S6x200x200 : S_.BroadcastsInDim S6x200x200 (![] : Fin 0 → Fin S6x200x200.rank)
  reducesTo_S6x200x200_S_d0_1_2 : S6x200x200.ReducesTo [0, 1, 2] S_
  bcast_S_S6x200 : S_.BroadcastsInDim S6x200 (![] : Fin 0 → Fin S6x200.rank)
  reducesTo_S6x200_S_d0_1 : S6x200.ReducesTo [0, 1] S_
  bcast_S_S200x1 : S_.BroadcastsInDim S200x1 (![] : Fin 0 → Fin S200x1.rank)
  reducesTo_S200x1_S_d0_1 : S200x1.ReducesTo [0, 1] S_

variable [Facts]

def fn_part2 {F : FTy → Type} [FloatOps F] (main_arg8 : FVec F S6x200 .f32) (main_arg9 : FVec F S200x1 .f32) (main_arg10 : FVec F S1 .f32) (main_v33 : IVec S_ 1) : IVec S_ 1 :=
  let main_v34 : FVec F S6x200 .f32 := Host.absf main_arg8
  let main_cst_12 : FVec F S_ .f32 := constant S_ .f32 0x7F800000#32
  let main_v35 : FVec F S6x200 .f32 := broadcastInDim S6x200 ![] bcast_S_S6x200 main_cst_12
  let main_v36 : IVec S6x200 1 := cmpf .olt main_v34 main_v35
  let main_c_13 : IVec S_ 1 := constantI S_ 1 1#1
  let main_v37 : IVec S_ 1 := (fun x v => Host.reduce IntOp.andi x v reducesTo_S6x200_S_d0_1 h_S_) main_v36 main_c_13
  let main_v38 : IVec S_ 1 := andi main_v33 main_v37
  let main_v39 : FVec F S200x1 .f32 := Host.absf main_arg9
  let main_cst_14 : FVec F S_ .f32 := constant S_ .f32 0x7F800000#32
  let main_v40 : FVec F S200x1 .f32 := broadcastInDim S200x1 ![] bcast_S_S200x1 main_cst_14
  let main_v41 : IVec S200x1 1 := cmpf .olt main_v39 main_v40
  let main_c_15 : IVec S_ 1 := constantI S_ 1 1#1
  let main_v42 : IVec S_ 1 := (fun x v => Host.reduce IntOp.andi x v reducesTo_S200x1_S_d0_1 h_S_) main_v41 main_c_15
  let main_v43 : IVec S_ 1 := andi main_v38 main_v42
  let main_v44 : FVec F S1 .f32 := Host.absf main_arg10
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg5 : FVec F S1x200 .f32) (main_arg6 : FVec F S200 .f32) (main_arg7 : FVec F S6x200x200 .f32) (main_arg8 : FVec F S6x200 .f32) (main_arg9 : FVec F S200x1 .f32) (main_arg10 : FVec F S1 .f32) (main_v13 : IVec S_ 1) (main_v16 : IVec S1x1 1) : IVec S_ 1 :=
  let main_c_5 : IVec S_ 1 := constantI S_ 1 1#1
  let main_v17 : IVec S_ 1 := (fun x v => Host.reduce IntOp.andi x v reducesTo_S1x1_S_d0_1 h_S_) main_v16 main_c_5
  let main_v18 : IVec S_ 1 := andi main_v13 main_v17
  let main_v19 : FVec F S1x200 .f32 := Host.absf main_arg5
  let main_cst_6 : FVec F S_ .f32 := constant S_ .f32 0x7F800000#32
  let main_v20 : FVec F S1x200 .f32 := broadcastInDim S1x200 ![] bcast_S_S1x200 main_cst_6
  let main_v21 : IVec S1x200 1 := cmpf .olt main_v19 main_v20
  let main_c_7 : IVec S_ 1 := constantI S_ 1 1#1
  let main_v22 : IVec S_ 1 := (fun x v => Host.reduce IntOp.andi x v reducesTo_S1x200_S_d0_1 h_S_) main_v21 main_c_7
  let main_v23 : IVec S_ 1 := andi main_v18 main_v22
  let main_v24 : FVec F S200 .f32 := Host.absf main_arg6
  let main_cst_8 : FVec F S_ .f32 := constant S_ .f32 0x7F800000#32
  let main_v25 : FVec F S200 .f32 := broadcastInDim S200 ![] bcast_S_S200 main_cst_8
  let main_v26 : IVec S200 1 := cmpf .olt main_v24 main_v25
  let main_c_9 : IVec S_ 1 := constantI S_ 1 1#1
  let main_v27 : IVec S_ 1 := (fun x v => Host.reduce IntOp.andi x v reducesTo_S200_S_d0 h_S_) main_v26 main_c_9
  let main_v28 : IVec S_ 1 := andi main_v23 main_v27
  let main_v29 : FVec F S6x200x200 .f32 := Host.absf main_arg7
  let main_cst_10 : FVec F S_ .f32 := constant S_ .f32 0x7F800000#32
  let main_v30 : FVec F S6x200x200 .f32 := broadcastInDim S6x200x200 ![] bcast_S_S6x200x200 main_cst_10
  let main_v31 : IVec S6x200x200 1 := cmpf .olt main_v29 main_v30
  let main_c_11 : IVec S_ 1 := constantI S_ 1 1#1
  let main_v32 : IVec S_ 1 := (fun x v => Host.reduce IntOp.andi x v reducesTo_S6x200x200_S_d0_1_2 h_S_) main_v31 main_c_11
  let main_v33 : IVec S_ 1 := andi main_v28 main_v32
  fn_part2 (F := F) main_arg8 main_arg9 main_arg10 main_v33

def fn {F : FTy → Type} [FloatOps F] (main_arg0 : FVec F S200000x1 .f32) (main_arg1 : IVec S2x6400000 32) (main_arg2 : FVec F S1x1 .f32) (main_arg3 : FVec F S1 .f32) (main_arg4 : FVec F S1x1 .f32) (main_arg5 : FVec F S1x200 .f32) (main_arg6 : FVec F S200 .f32) (main_arg7 : FVec F S6x200x200 .f32) (main_arg8 : FVec F S6x200 .f32) (main_arg9 : FVec F S200x1 .f32) (main_arg10 : FVec F S1 .f32) : IVec S_ 1 :=
  let main_v0 : FVec F S200000x1 .f32 := Host.absf main_arg0
  let main_cst : FVec F S_ .f32 := constant S_ .f32 0x7F800000#32
  let main_v1 : FVec F S200000x1 .f32 := broadcastInDim S200000x1 ![] bcast_S_S200000x1 main_cst
  let main_v2 : IVec S200000x1 1 := cmpf .olt main_v0 main_v1
  let main_c : IVec S_ 1 := constantI S_ 1 1#1
  let main_v3 : IVec S_ 1 := (fun x v => Host.reduce IntOp.andi x v reducesTo_S200000x1_S_d0_1 h_S_) main_v2 main_c
  let main_v4 : FVec F S1x1 .f32 := Host.absf main_arg2
  let main_cst_0 : FVec F S_ .f32 := constant S_ .f32 0x7F800000#32
  let main_v5 : FVec F S1x1 .f32 := broadcastInDim S1x1 ![] bcast_S_S1x1 main_cst_0
  let main_v6 : IVec S1x1 1 := cmpf .olt main_v4 main_v5
  let main_c_1 : IVec S_ 1 := constantI S_ 1 1#1
  let main_v7 : IVec S_ 1 := (fun x v => Host.reduce IntOp.andi x v reducesTo_S1x1_S_d0_1 h_S_) main_v6 main_c_1
  let main_v8 : IVec S_ 1 := andi main_v3 main_v7
  let main_v9 : FVec F S1 .f32 := Host.absf main_arg3
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_v14 : FVec F S1x1 .f32 := Host.absf main_arg4
  let main_cst_4 : FVec F S_ .f32 := constant S_ .f32 0x7F800000#32
  let main_v15 : FVec F S1x1 .f32 := broadcastInDim S1x1 ![] bcast_S_S1x1 main_cst_4
  let main_v16 : IVec S1x1 1 := cmpf .olt main_v14 main_v15
  fn_part1 (F := F) main_arg5 main_arg6 main_arg7 main_arg8 main_arg9 main_arg10 main_v13 main_v16
-- ==== Kernel.lean ====
abbrev S200000x1 : Shape := ⟨2, ![200000, 1]⟩
abbrev S2x6400000 : Shape := ⟨2, ![2, 6400000]⟩
abbrev S1x1 : Shape := ⟨2, ![1, 1]⟩
abbrev S1 : Shape := ⟨1, ![1]⟩
abbrev S1x200 : Shape := ⟨2, ![1, 200]⟩
abbrev S200 : Shape := ⟨1, ![200]⟩
abbrev S6x200x200 : Shape := ⟨3, ![6, 200, 200]⟩
abbrev S6x200 : Shape := ⟨2, ![6, 200]⟩
abbrev S200x1 : Shape := ⟨2, ![200, 1]⟩
abbrev S1x6400000 : Shape := ⟨2, ![1, 6400000]⟩
abbrev S6400000 : Shape := ⟨1, ![6400000]⟩
abbrev S_ : Shape := ⟨0, ![]⟩
abbrev S6400000x1 : Shape := ⟨2, ![6400000, 1]⟩
abbrev S200000 : Shape := ⟨1, ![200000]⟩
abbrev S204800 : Shape := ⟨1, ![204800]⟩
abbrev S1x204800 : Shape := ⟨2, ![1, 204800]⟩
abbrev S6x200x1 : Shape := ⟨3, ![6, 200, 1]⟩
abbrev S1x8192 : Shape := ⟨2, ![1, 8192]⟩
abbrev S200x8192 : Shape := ⟨2, ![200, 8192]⟩
abbrev S1x200x200 : Shape := ⟨3, ![1, 200, 200]⟩
abbrev S200x200 : Shape := ⟨2, ![200, 200]⟩
abbrev S1x200x1 : Shape := ⟨3, ![1, 200, 1]⟩
abbrev S1x200000 : Shape := ⟨2, ![1, 200000]⟩

abbrev nBuf : Space → Nat
  | .hbm => 51
  | .vmem => 15
  | .smem => 0
  | _ => 0

abbrev bufTy : (tb : Table) → Fin (tcTables nBuf tb) → BufTy
  | .hbm, ⟨0, _⟩ => ⟨S200000x1, .f32⟩
  | .hbm, ⟨1, _⟩ => ⟨S2x6400000, .i32⟩
  | .hbm, ⟨2, _⟩ => ⟨S1x1, .f32⟩
  | .hbm, ⟨3, _⟩ => ⟨S1, .f32⟩
  | .hbm, ⟨4, _⟩ => ⟨S1x1, .f32⟩
  | .hbm, ⟨5, _⟩ => ⟨S1x200, .f32⟩
  | .hbm, ⟨6, _⟩ => ⟨S200, .f32⟩
  | .hbm, ⟨7, _⟩ => ⟨S6x200x200, .f32⟩
  | .hbm, ⟨8, _⟩ => ⟨S6x200, .f32⟩
  | .hbm, ⟨9, _⟩ => ⟨S200x1, .f32⟩
  | .hbm, ⟨10, _⟩ => ⟨S1, .f32⟩
  | .hbm, ⟨11, _⟩ => ⟨S1x6400000, .i32⟩
  | .hbm, ⟨12, _⟩ => ⟨S6400000, .i32⟩
  | .hbm, ⟨13, _⟩ => ⟨S1x6400000, .i32⟩
  | .hbm, ⟨14, _⟩ => ⟨S6400000, .i32⟩
  | .hbm, ⟨15, _⟩ => ⟨S_, .i32⟩
  | .hbm, ⟨16, _⟩ => ⟨S6400000, .i32⟩
  | .hbm, ⟨17, _⟩ => ⟨S6400000, .i1⟩
  | .hbm, ⟨18, _⟩ => ⟨S_, .i32⟩
  | .hbm, ⟨19, _⟩ => ⟨S6400000, .i32⟩
  | .hbm, ⟨20, _⟩ => ⟨S6400000, .i32⟩
  | .hbm, ⟨21, _⟩ => ⟨S6400000, .i32⟩
  | .hbm, ⟨22, _⟩ => ⟨S6400000x1, .i32⟩
  | .hbm, ⟨23, _⟩ => ⟨S6400000x1, .f32⟩
  | .hbm, ⟨24, _⟩ => ⟨S_, .f32⟩
  | .hbm, ⟨25, _⟩ => ⟨S200000x1, .f32⟩
  | .hbm, ⟨26, _⟩ => ⟨S6400000x1, .i32⟩
  | .hbm, ⟨27, _⟩ => ⟨S200000x1, .f32⟩
  | .hbm, ⟨28, _⟩ => ⟨S200000, .f32⟩
  | .hbm, ⟨29, _⟩ => ⟨S_, .i32⟩
  | .hbm, ⟨30, _⟩ => ⟨S_, .f32⟩
  | .hbm, ⟨31, _⟩ => ⟨S204800, .f32⟩
  | .hbm, ⟨32, _⟩ => ⟨S1x204800, .f32⟩
  | .hbm, ⟨33, _⟩ => ⟨S200000, .f32⟩
  | .hbm, ⟨34, _⟩ => ⟨S_, .i32⟩
  | .hbm, ⟨35, _⟩ => ⟨S_, .f32⟩
  | .hbm, ⟨36, _⟩ => ⟨S204800, .f32⟩
  | .hbm, ⟨37, _⟩ => ⟨S1x204800, .f32⟩
  | .hbm, ⟨38, _⟩ => ⟨S1x1, .f32⟩
  | .hbm, ⟨39, _⟩ => ⟨S200x1, .f32⟩
  | .hbm, ⟨40, _⟩ => ⟨S200x1, .f32⟩
  | .hbm, ⟨41, _⟩ => ⟨S6x200x200, .f32⟩
  | .hbm, ⟨42, _⟩ => ⟨S6x200x200, .bf16⟩
  | .hbm, ⟨43, _⟩ => ⟨S6x200x1, .f32⟩
  | .hbm, ⟨44, _⟩ => ⟨S1x200, .f32⟩
  | .hbm, ⟨45, _⟩ => ⟨S1x200, .bf16⟩
  | .hbm, ⟨46, _⟩ => ⟨S1x1, .f32⟩
  | .hbm, ⟨47, _⟩ => ⟨S1x204800, .f32⟩
  | .hbm, ⟨48, _⟩ => ⟨S1x200000, .f32⟩
  | .hbm, ⟨49, _⟩ => ⟨S200000, .f32⟩
  | .hbm, ⟨50, _⟩ => ⟨S200000x1, .f32⟩
  | .local _ .vmem, ⟨0, _⟩ => ⟨S1x8192, .f32⟩
  | .local _ .vmem, ⟨1, _⟩ => ⟨S1x8192, .f32⟩
  | .local _ .vmem, ⟨2, _⟩ => ⟨S1x8192, .f32⟩
  | .local _ .vmem, ⟨3, _⟩ => ⟨S1x8192, .f32⟩
  | .local _ .vmem, ⟨4, _⟩ => ⟨S1x1, .f32⟩
  | .local _ .vmem, ⟨5, _⟩ => ⟨S1x1, .f32⟩
  | .local _ .vmem, ⟨6, _⟩ => ⟨S1x1, .f32⟩
  | .local _ .vmem, ⟨7, _⟩ => ⟨S200x1, .f32⟩
  | .local _ .vmem, ⟨8, _⟩ => ⟨S200x1, .f32⟩
  | .local _ .vmem, ⟨9, _⟩ => ⟨S6x200x200, .bf16⟩
  | .local _ .vmem, ⟨10, _⟩ => ⟨S6x200x1, .f32⟩
  | .local _ .vmem, ⟨11, _⟩ => ⟨S1x200, .bf16⟩
  | .local _ .vmem, ⟨12, _⟩ => ⟨S1x1, .f32⟩
  | .local _ .vmem, ⟨13, _⟩ => ⟨S1x8192, .f32⟩
  | .local _ .vmem, ⟨14, _⟩ => ⟨S1x8192, .f32⟩
  | _, _ => ⟨S200000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_c_1 : Ref sig .tc := ⟨.hbm, 29, rfl⟩
abbrev main_call0_v0 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c_2 : Ref sig .tc := ⟨.hbm, 34, rfl⟩
abbrev main_call1_v0 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S200x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S200x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S6x200x200 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S6x200x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x200 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x8192 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  bcast_S_S6400000 : S_.BroadcastsInDim S6400000 (![] : Fin 0 → Fin S6400000.rank)
  bcast_S6400000_S6400000x1_0 : S6400000.BroadcastsInDim S6400000x1 (![0] : Fin 1 → Fin S6400000x1.rank)
  bcast_S_S200000x1 : S_.BroadcastsInDim S200000x1 (![] : Fin 0 → Fin S200000x1.rank)
  shapeCasts_S200000x1_S200000 : S200000x1.ShapeCasts S200000
  pads_S200000_S204800_048000 : S200000.Pads (![0] : Fin 1 → Nat) ![4800] ![0] S204800
  h_S_ : 0 < S_.numel
  shapeCasts_S204800_S1x204800 : S204800.ShapeCasts S1x204800
  shapeCasts_S1_S1x1 : S1.ShapeCasts S1x1
  transposes_S1x200_S200x1_1_0 : S1x200.Transposes [1, 0] S200x1
  shapeCasts_S200_S200x1 : S200.ShapeCasts S200x1
  transposes_S6x200x200_S6x200x200_0_2_1 : S6x200x200.Transposes [0, 2, 1] S6x200x200
  bitsLt_bf16_f32 : FTy.bits .bf16 < FTy.bits .f32
  shapeCasts_S6x200_S6x200x1 : S6x200.ShapeCasts S6x200x1
  transposes_S200x1_S1x200_1_0 : S200x1.Transposes [1, 0] S1x200
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1x8192 : S1x1.Broadcasts S1x8192
  inb_S200x1_S200x1_0_0 : ∀ a, (![0, 0] : Fin 2 → Nat) a + S200x1.size a ≤ S200x1.size a
  h_S200x1 : 0 < S200x1.numel
  shapeCasts_S200x1_S200x1 : S200x1.ShapeCasts S200x1
  broadcasts_S200x1_S200x8192 : S200x1.Broadcasts S200x8192
  broadcasts_S1x8192_S200x8192 : S1x8192.Broadcasts S200x8192
  inb_S6x200x200_S1x200x200_0_0_0 : ∀ a, (![0, 0, 0] : Fin 3 → Nat) a + S1x200x200.size a ≤ S6x200x200.size a
  h_S1x200x200 : 0 < S1x200x200.numel
  shapeCasts_S1x200x200_S200x200 : S1x200x200.ShapeCasts S200x200
  inb_S6x200x1_S1x200x1_0_0_0 : ∀ a, (![0, 0, 0] : Fin 3 → Nat) a + S1x200x1.size a ≤ S6x200x1.size a
  h_S1x200x1 : 0 < S1x200x1.numel
  shapeCasts_S1x200x1_S200x1 : S1x200x1.ShapeCasts S200x1
  inb_S6x200x200_S1x200x200_1_0_0 : ∀ a, (![1, 0, 0] : Fin 3 → Nat) a + S1x200x200.size a ≤ S6x200x200.size a
  inb_S6x200x1_S1x200x1_1_0_0 : ∀ a, (![1, 0, 0] : Fin 3 → Nat) a + S1x200x1.size a ≤ S6x200x1.size a
  inb_S6x200x200_S1x200x200_2_0_0 : ∀ a, (![2, 0, 0] : Fin 3 → Nat) a + S1x200x200.size a ≤ S6x200x200.size a
  inb_S6x200x1_S1x200x1_2_0_0 : ∀ a, (![2, 0, 0] : Fin 3 → Nat) a + S1x200x1.size a ≤ S6x200x1.size a
  inb_S6x200x200_S1x200x200_3_0_0 : ∀ a, (![3, 0, 0] : Fin 3 → Nat) a + S1x200x200.size a ≤ S6x200x200.size a
  inb_S6x200x1_S1x200x1_3_0_0 : ∀ a, (![3, 0, 0] : Fin 3 → Nat) a + S1x200x1.size a ≤ S6x200x1.size a
  inb_S6x200x200_S1x200x200_4_0_0 : ∀ a, (![4, 0, 0] : Fin 3 → Nat) a + S1x200x200.size a ≤ S6x200x200.size a
  inb_S6x200x1_S1x200x1_4_0_0 : ∀ a, (![4, 0, 0] : Fin 3 → Nat) a + S1x200x1.size a ≤ S6x200x1.size a
  inb_S6x200x200_S1x200x200_5_0_0 : ∀ a, (![5, 0, 0] : Fin 3 → Nat) a + S1x200x200.size a ≤ S6x200x200.size a
  inb_S6x200x1_S1x200x1_5_0_0 : ∀ a, (![5, 0, 0] : Fin 3 → Nat) a + S1x200x1.size a ≤ S6x200x1.size a
  inb_S1x200_S1x200_0_0 : ∀ a, (![0, 0] : Fin 2 → Nat) a + S1x200.size a ≤ S1x200.size a
  h_S1x200 : 0 < S1x200.numel
  shapeCasts_S1x200_S1x200 : S1x200.ShapeCasts S1x200
  slices_S1x204800_S1x200000_0_0 : S1x204800.Slices ![0, 0] S1x200000
  shapeCasts_S1x200000_S200000 : S1x200000.ShapeCasts S200000
  shapeCasts_S200000_S200000x1 : S200000.ShapeCasts S200000x1
  gather_S200000x1_S6400000x1_S6400000x1_1_0_n_n_0_1_11_wf : GatherDims.WF S200000x1 S6400000x1 S6400000x1 [1] [0] [] [0] [] 1 ![1, 1]
  scatter_S200000x1_S6400000x1_S6400000x1_1_0_0_1_wf : ScatterDims.WF S200000x1 S6400000x1 S6400000x1 [1] [0] [0] 1
  dot_S200x200_S200x8192_S200x8192_1_0_0_1_n_n_wf : DotDims.WF S200x200 S200x8192 S200x8192 [1] [0] [0] [1] [] []
  dot_S1x200_S200x8192_S1x8192_1_0_0_1_n_n_wf : DotDims.WF S1x200 S200x8192 S1x8192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8192.size a ≤ S1x204800.size a
  hwx0_0 : ∀ i : grid0.Coords, EltTy.bits .f32 = 32 ∨ (Rect.block (s := S1x204800) S1x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8192.size a ≤ S1x204800.size a
  hwx0_1 : ∀ i : grid0.Coords, EltTy.bits .f32 = 32 ∨ (Rect.block (s := S1x204800) S1x8192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S200x1.size a ≤ S200x1.size a
  hwx0_5 : ∀ i : grid0.Coords, EltTy.bits .f32 = 32 ∨ (Rect.block (s := S200x1) S200x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S200x1.size a ≤ S200x1.size a
  hwx0_6 : ∀ i : grid0.Coords, EltTy.bits .f32 = 32 ∨ (Rect.block (s := S200x1) S200x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S6x200x200.size a ≤ S6x200x200.size a
  hwx0_7 : ∀ i : grid0.Coords, EltTy.bits .bf16 = 32 ∨ (Rect.block (s := S6x200x200) S6x200x200.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S6x200x1.size a ≤ S6x200x1.size a
  hwx0_8 : ∀ i : grid0.Coords, EltTy.bits .f32 = 32 ∨ (Rect.block (s := S6x200x1) S6x200x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x200.size a ≤ S1x200.size a
  hwx0_9 : ∀ i : grid0.Coords, EltTy.bits .bf16 = 32 ∨ (Rect.block (s := S1x200) S1x200.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1.size a ≤ S1x1.size a
  hwx0_10 : ∀ i : grid0.Coords, EltTy.bits .f32 = 32 ∨ (Rect.block (s := S1x1) S1x1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x8192.size a ≤ S1x204800.size a
  hwx0_11 : ∀ i : grid0.Coords, EltTy.bits .f32 = 32 ∨ (Rect.block (s := S1x204800) S1x8192.size (cc0_transform_11 i) (hinb0_11 i)).WholeWords (EltTy.packing .f32)

variable [Facts₀]

def gather_S200000x1_S6400000x1_S6400000x1_1_0_n_n_0_1_11 : GatherDims S200000x1 S6400000x1 S6400000x1 where
  offsetDims := [1]
  collapsedSliceDims := [0]
  operandBatchingDims := []
  startIndicesBatchingDims := []
  startIndexMap := [0]
  indexVectorDim := 1
  sliceSizes := ![1, 1]
  wf := gather_S200000x1_S6400000x1_S6400000x1_1_0_n_n_0_1_11_wf
def scatter_S200000x1_S6400000x1_S6400000x1_1_0_0_1 : ScatterDims S200000x1 S6400000x1 S6400000x1 where
  updateWindowDims := [1]
  insertedWindowDims := [0]
  scatterDimsToOperandDims := [0]
  indexVectorDim := 1
  wf := scatter_S200000x1_S6400000x1_S6400000x1_1_0_0_1_wf
def dot_S200x200_S200x8192_S200x8192_1_0_0_1_n_n : DotDims S200x200 S200x8192 S200x8192 where
  lhsContracting := [1]
  rhsContracting := [0]
  lhsNonContracting := [0]
  rhsNonContracting := [1]
  lhsBatch := []
  rhsBatch := []
  wf := dot_S200x200_S200x8192_S200x8192_1_0_0_1_n_n_wf
def dot_S1x200_S200x8192_S1x8192_1_0_0_1_n_n : DotDims S1x200 S200x8192 S1x8192 where
  lhsContracting := [1]
  rhsContracting := [0]
  lhsNonContracting := [0]
  rhsNonContracting := [1]
  lhsBatch := []
  rhsBatch := []
  wf := dot_S1x200_S200x8192_S1x8192_1_0_0_1_n_n_wf

abbrev win0_0 : Pipeline.Window sig grid0 :=
  Pipeline.Window.ofSpec (Memref.whole main_v16) S1x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S1x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S1x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S200x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S200x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v24) S6x200x200.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v25) S6x200x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v27) S1x200.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v28) S1x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v29) S1x8192.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S200000x1 : Shape := ⟨2, ![200000, 1]⟩
abbrev S2x6400000 : Shape := ⟨2, ![2, 6400000]⟩
abbrev S1x1 : Shape := ⟨2, ![1, 1]⟩
abbrev S1 : Shape := ⟨1, ![1]⟩
abbrev S1x200 : Shape := ⟨2, ![1, 200]⟩
abbrev S200 : Shape := ⟨1, ![200]⟩
abbrev S6x200x200 : Shape := ⟨3, ![6, 200, 200]⟩
abbrev S6x200 : Shape := ⟨2, ![6, 200]⟩
abbrev S200x1 : Shape := ⟨2, ![200, 1]⟩
abbrev S1x6400000 : Shape := ⟨2, ![1, 6400000]⟩
abbrev S6400000 : Shape := ⟨1, ![6400000]⟩
abbrev S_ : Shape := ⟨0, ![]⟩
abbrev S6400000x1 : Shape := ⟨2, ![6400000, 1]⟩
abbrev S200000x200 : Shape := ⟨2, ![200000, 200]⟩
abbrev S1x200x200 : Shape := ⟨3, ![1, 200, 200]⟩
abbrev S200x200 : Shape := ⟨2, ![200, 200]⟩

abbrev nBuf : Space → Nat
  | .hbm => 119
  | .vmem => 0
  | .smem => 0
  | _ => 0

abbrev bufTy : (tb : Table) → Fin (tcTables nBuf tb) → BufTy
  | .hbm, ⟨0, _⟩ => ⟨S200000x1, .f32⟩
  | .hbm, ⟨1, _⟩ => ⟨S2x6400000, .i32⟩
  | .hbm, ⟨2, _⟩ => ⟨S1x1, .f32⟩
  | .hbm, ⟨3, _⟩ => ⟨S1, .f32⟩
  | .hbm, ⟨4, _⟩ => ⟨S1x1, .f32⟩
  | .hbm, ⟨5, _⟩ => ⟨S1x200, .f32⟩
  | .hbm, ⟨6, _⟩ => ⟨S200, .f32⟩
  | .hbm, ⟨7, _⟩ => ⟨S6x200x200, .f32⟩
  | .hbm, ⟨8, _⟩ => ⟨S6x200, .f32⟩
  | .hbm, ⟨9, _⟩ => ⟨S200x1, .f32⟩
  | .hbm, ⟨10, _⟩ => ⟨S1, .f32⟩
  | .hbm, ⟨11, _⟩ => ⟨S1x6400000, .i32⟩
  | .hbm, ⟨12, _⟩ => ⟨S6400000, .i32⟩
  | .hbm, ⟨13, _⟩ => ⟨S1x6400000, .i32⟩
  | .hbm, ⟨14, _⟩ => ⟨S6400000, .i32⟩
  | .hbm, ⟨15, _⟩ => ⟨S_, .i32⟩
  | .hbm, ⟨16, _⟩ => ⟨S6400000, .i32⟩
  | .hbm, ⟨17, _⟩ => ⟨S6400000, .i1⟩
  | .hbm, ⟨18, _⟩ => ⟨S_, .i32⟩
  | .hbm, ⟨19, _⟩ => ⟨S6400000, .i32⟩
  | .hbm, ⟨20, _⟩ => ⟨S6400000, .i32⟩
  | .hbm, ⟨21, _⟩ => ⟨S6400000, .i32⟩
  | .hbm, ⟨22, _⟩ => ⟨S6400000x1, .i32⟩
  | .hbm, ⟨23, _⟩ => ⟨S6400000x1, .f32⟩
  | .hbm, ⟨24, _⟩ => ⟨S_, .f32⟩
  | .hbm, ⟨25, _⟩ => ⟨S200000x1, .f32⟩
  | .hbm, ⟨26, _⟩ => ⟨S6400000x1, .i32⟩
  | .hbm, ⟨27, _⟩ => ⟨S200000x1, .f32⟩
  | .hbm, ⟨28, _⟩ => ⟨S200000x1, .f32⟩
  | .hbm, ⟨29, _⟩ => ⟨S1x1, .f32⟩
  | .hbm, ⟨30, _⟩ => ⟨S200000x1, .f32⟩
  | .hbm, ⟨31, _⟩ => ⟨S200000x1, .f32⟩
  | .hbm, ⟨32, _⟩ => ⟨S200000x1, .f32⟩
  | .hbm, ⟨33, _⟩ => ⟨S200000x1, .f32⟩
  | .hbm, ⟨34, _⟩ => ⟨S200000x200, .f32⟩
  | .hbm, ⟨35, _⟩ => ⟨S1x200, .f32⟩
  | .hbm, ⟨36, _⟩ => ⟨S200000x200, .f32⟩
  | .hbm, ⟨37, _⟩ => ⟨S200000x200, .f32⟩
  | .hbm, ⟨38, _⟩ => ⟨S_, .f32⟩
  | .hbm, ⟨39, _⟩ => ⟨S200000x200, .f32⟩
  | .hbm, ⟨40, _⟩ => ⟨S200000x200, .f32⟩
  | .hbm, ⟨41, _⟩ => ⟨S1x200x200, .f32⟩
  | .hbm, ⟨42, _⟩ => ⟨S200x200, .f32⟩
  | .hbm, ⟨43, _⟩ => ⟨S200000x200, .f32⟩
  | .hbm, ⟨44, _⟩ => ⟨S1x200, .f32⟩
  | .hbm, ⟨45, _⟩ => ⟨S200, .f32⟩
  | .hbm, ⟨46, _⟩ => ⟨S1x200, .f32⟩
  | .hbm, ⟨47, _⟩ => ⟨S200000x200, .f32⟩
  | .hbm, ⟨48, _⟩ => ⟨S200000x200, .f32⟩
  | .hbm, ⟨49, _⟩ => ⟨S_, .f32⟩
  | .hbm, ⟨50, _⟩ => ⟨S200000x200, .f32⟩
  | .hbm, ⟨51, _⟩ => ⟨S200000x200, .f32⟩
  | .hbm, ⟨52, _⟩ => ⟨S1x200x200, .f32⟩
  | .hbm, ⟨53, _⟩ => ⟨S200x200, .f32⟩
  | .hbm, ⟨54, _⟩ => ⟨S200000x200, .f32⟩
  | .hbm, ⟨55, _⟩ => ⟨S1x200, .f32⟩
  | .hbm, ⟨56, _⟩ => ⟨S200, .f32⟩
  | .hbm, ⟨57, _⟩ => ⟨S1x200, .f32⟩
  | .hbm, ⟨58, _⟩ => ⟨S200000x200, .f32⟩
  | .hbm, ⟨59, _⟩ => ⟨S200000x200, .f32⟩
  | .hbm, ⟨60, _⟩ => ⟨S_, .f32⟩
  | .hbm, ⟨61, _⟩ => ⟨S200000x200, .f32⟩
  | .hbm, ⟨62, _⟩ => ⟨S200000x200, .f32⟩
  | .hbm, ⟨63, _⟩ => ⟨S1x200x200, .f32⟩
  | .hbm, ⟨64, _⟩ => ⟨S200x200, .f32⟩
  | .hbm, ⟨65, _⟩ => ⟨S200000x200, .f32⟩
  | .hbm, ⟨66, _⟩ => ⟨S1x200, .f32⟩
  | .hbm, ⟨67, _⟩ => ⟨S200, .f32⟩
  | .hbm, ⟨68, _⟩ => ⟨S1x200, .f32⟩
  | .hbm, ⟨69, _⟩ => ⟨S200000x200, .f32⟩
  | .hbm, ⟨70, _⟩ => ⟨S200000x200, .f32⟩
  | .hbm, ⟨71, _⟩ => ⟨S_, .f32⟩
  | .hbm, ⟨72, _⟩ => ⟨S200000x200, .f32⟩
  | .hbm, ⟨73, _⟩ => ⟨S200000x200, .f32⟩
  | .hbm, ⟨74, _⟩ => ⟨S1x200x200, .f32⟩
  | .hbm, ⟨75, _⟩ => ⟨S200x200, .f32⟩
  | .hbm, ⟨76, _⟩ => ⟨S200000x200, .f32⟩
  | .hbm, ⟨77, _⟩ => ⟨S1x200, .f32⟩
  | .hbm, ⟨78, _⟩ => ⟨S200, .f32⟩
  | .hbm, ⟨79, _⟩ => ⟨S1x200, .f32⟩
  | .hbm, ⟨80, _⟩ => ⟨S200000x200, .f32⟩
  | .hbm, ⟨81, _⟩ => ⟨S200000x200, .f32⟩
  | .hbm, ⟨82, _⟩ => ⟨S_, .f32⟩
  | .hbm, ⟨83, _⟩ => ⟨S200000x200, .f32⟩
  | .hbm, ⟨84, _⟩ => ⟨S200000x200, .f32⟩
  | .hbm, ⟨85, _⟩ => ⟨S1x200x200, .f32⟩
  | .hbm, ⟨86, _⟩ => ⟨S200x200, .f32⟩
  | .hbm, ⟨87, _⟩ => ⟨S200000x200, .f32⟩
  | .hbm, ⟨88, _⟩ => ⟨S1x200, .f32⟩
  | .hbm, ⟨89, _⟩ => ⟨S200, .f32⟩
  | .hbm, ⟨90, _⟩ => ⟨S1x200, .f32⟩
  | .hbm, ⟨91, _⟩ => ⟨S200000x200, .f32⟩
  | .hbm, ⟨92, _⟩ => ⟨S200000x200, .f32⟩
  | .hbm, ⟨93, _⟩ => ⟨S_, .f32⟩
  | .hbm, ⟨94, _⟩ => ⟨S200000x200, .f32⟩
  | .hbm, ⟨95, _⟩ => ⟨S200000x200, .f32⟩
  | .hbm, ⟨96, _⟩ => ⟨S1x200x200, .f32⟩
  | .hbm, ⟨97, _⟩ => ⟨S200x200, .f32⟩
  | .hbm, ⟨98, _⟩ => ⟨S200000x200, .f32⟩
  | .hbm, ⟨99, _⟩ => ⟨S1x200, .f32⟩
  | .hbm, ⟨100, _⟩ => ⟨S200, .f32⟩
  | .hbm, ⟨101, _⟩ => ⟨S1x200, .f32⟩
  | .hbm, ⟨102, _⟩ => ⟨S200000x200, .f32⟩
  | .hbm, ⟨103, _⟩ => ⟨S200000x200, .f32⟩
  | .hbm, ⟨104, _⟩ => ⟨S_, .f32⟩
  | .hbm, ⟨105, _⟩ => ⟨S200000x200, .f32⟩
  | .hbm, ⟨106, _⟩ => ⟨S200000x200, .f32⟩
  | .hbm, ⟨107, _⟩ => ⟨S200000x1, .f32⟩
  | .hbm, ⟨108, _⟩ => ⟨S1x1, .f32⟩
  | .hbm, ⟨109, _⟩ => ⟨S200000x1, .f32⟩
  | .hbm, ⟨110, _⟩ => ⟨S200000x1, .f32⟩
  | .hbm, ⟨111, _⟩ => ⟨S200000x1, .f32⟩
  | .hbm, ⟨112, _⟩ => ⟨S200000x1, .f32⟩
  | .hbm, ⟨113, _⟩ => ⟨S_, .f32⟩
  | .hbm, ⟨114, _⟩ => ⟨S200000x1, .f32⟩
  | .hbm, ⟨115, _⟩ => ⟨S200000x1, .f32⟩
  | .hbm, ⟨116, _⟩ => ⟨S_, .f32⟩
  | .hbm, ⟨117, _⟩ => ⟨S200000x1, .f32⟩
  | .hbm, ⟨118, _⟩ => ⟨S200000x1, .f32⟩
  | _, _ => ⟨S200000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_call0_cst : Ref sig .tc := ⟨.hbm, 38, rfl⟩
abbrev main_call0_v0 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_call1_cst : Ref sig .tc := ⟨.hbm, 49, rfl⟩
abbrev main_call1_v0 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_call2_cst : Ref sig .tc := ⟨.hbm, 60, rfl⟩
abbrev main_call2_v0 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_call3_cst : Ref sig .tc := ⟨.hbm, 71, rfl⟩
abbrev main_call3_v0 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_call4_cst : Ref sig .tc := ⟨.hbm, 82, rfl⟩
abbrev main_call4_v0 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_call5_cst : Ref sig .tc := ⟨.hbm, 93, rfl⟩
abbrev main_call5_v0 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_call6_cst : Ref sig .tc := ⟨.hbm, 104, rfl⟩
abbrev main_call6_v0 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_cst_1 : Ref sig .tc := ⟨.hbm, 113, rfl⟩
abbrev main_v85 : Ref sig .tc := ⟨.hbm, 114, rfl⟩
abbrev main_v86 : Ref sig .tc := ⟨.hbm, 115, rfl⟩
abbrev main_cst_2 : Ref sig .tc := ⟨.hbm, 116, rfl⟩
abbrev main_v87 : Ref sig .tc := ⟨.hbm, 117, rfl⟩
abbrev main_v88 : Ref sig .tc := ⟨.hbm, 118, rfl⟩

abbrev nD : Nat := 1
abbrev τ : Topo := Topo.v7x

variable {F : FTy → Type} [FloatOps F]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  bcast_S_S6400000 : S_.BroadcastsInDim S6400000 (![] : Fin 0 → Fin S6400000.rank)
  bcast_S6400000_S6400000x1_0 : S6400000.BroadcastsInDim S6400000x1 (![0] : Fin 1 → Fin S6400000x1.rank)
  bcast_S_S200000x1 : S_.BroadcastsInDim S200000x1 (![] : Fin 0 → Fin S200000x1.rank)
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  bcast_S200_S1x200_1 : S200.BroadcastsInDim S1x200 (![1] : Fin 1 → Fin S1x200.rank)
  bcast_S1x200_S200000x200_0_1 : S1x200.BroadcastsInDim S200000x200 (![0, 1] : Fin 2 → Fin S200000x200.rank)
  bcast_S_S200000x200 : S_.BroadcastsInDim S200000x200 (![] : Fin 0 → Fin S200000x200.rank)
  slices_S6x200x200_S1x200x200_0_0_0 : S6x200x200.Slices ![0, 0, 0] S1x200x200
  shapeCasts_S1x200x200_S200x200 : S1x200x200.ShapeCasts S200x200
  slices_S6x200_S1x200_0_0 : S6x200.Slices ![0, 0] S1x200
  shapeCasts_S1x200_S200 : S1x200.ShapeCasts S200
  slices_S6x200x200_S1x200x200_1_0_0 : S6x200x200.Slices ![1, 0, 0] S1x200x200
  slices_S6x200_S1x200_1_0 : S6x200.Slices ![1, 0] S1x200
  slices_S6x200x200_S1x200x200_2_0_0 : S6x200x200.Slices ![2, 0, 0] S1x200x200
  slices_S6x200_S1x200_2_0 : S6x200.Slices ![2, 0] S1x200
  slices_S6x200x200_S1x200x200_3_0_0 : S6x200x200.Slices ![3, 0, 0] S1x200x200
  slices_S6x200_S1x200_3_0 : S6x200.Slices ![3, 0] S1x200
  slices_S6x200x200_S1x200x200_4_0_0 : S6x200x200.Slices ![4, 0, 0] S1x200x200
  slices_S6x200_S1x200_4_0 : S6x200.Slices ![4, 0] S1x200
  slices_S6x200x200_S1x200x200_5_0_0 : S6x200x200.Slices ![5, 0, 0] S1x200x200
  slices_S6x200_S1x200_5_0 : S6x200.Slices ![5, 0] S1x200
  gather_S200000x1_S6400000x1_S6400000x1_1_0_n_n_0_1_11_wf : GatherDims.WF S200000x1 S6400000x1 S6400000x1 [1] [0] [] [0] [] 1 ![1, 1]
  scatter_S200000x1_S6400000x1_S6400000x1_1_0_0_1_wf : ScatterDims.WF S200000x1 S6400000x1 S6400000x1 [1] [0] [0] 1
  dot_S200000x1_S1x1_S200000x1_1_0_0_1_n_n_wf : DotDims.WF S200000x1 S1x1 S200000x1 [1] [0] [0] [1] [] []
  dot_S200000x1_S1x200_S200000x200_1_0_0_1_n_n_wf : DotDims.WF S200000x1 S1x200 S200000x200 [1] [0] [0] [1] [] []
  dot_S200000x200_S200x200_S200000x200_1_0_0_1_n_n_wf : DotDims.WF S200000x200 S200x200 S200000x200 [1] [0] [0] [1] [] []
  dot_S200000x200_S200x1_S200000x1_1_0_0_1_n_n_wf : DotDims.WF S200000x200 S200x1 S200000x1 [1] [0] [0] [1] [] []

variable [Facts₀]

def gather_S200000x1_S6400000x1_S6400000x1_1_0_n_n_0_1_11 : GatherDims S200000x1 S6400000x1 S6400000x1 where
  offsetDims := [1]
  collapsedSliceDims := [0]
  operandBatchingDims := []
  startIndicesBatchingDims := []
  startIndexMap := [0]
  indexVectorDim := 1
  sliceSizes := ![1, 1]
  wf := gather_S200000x1_S6400000x1_S6400000x1_1_0_n_n_0_1_11_wf
def scatter_S200000x1_S6400000x1_S6400000x1_1_0_0_1 : ScatterDims S200000x1 S6400000x1 S6400000x1 where
  updateWindowDims := [1]
  insertedWindowDims := [0]
  scatterDimsToOperandDims := [0]
  indexVectorDim := 1
  wf := scatter_S200000x1_S6400000x1_S6400000x1_1_0_0_1_wf
def dot_S200000x1_S1x1_S200000x1_1_0_0_1_n_n : DotDims S200000x1 S1x1 S200000x1 where
  lhsContracting := [1]
  rhsContracting := [0]
  lhsNonContracting := [0]
  rhsNonContracting := [1]
  lhsBatch := []
  rhsBatch := []
  wf := dot_S200000x1_S1x1_S200000x1_1_0_0_1_n_n_wf
def dot_S200000x1_S1x200_S200000x200_1_0_0_1_n_n : DotDims S200000x1 S1x200 S200000x200 where
  lhsContracting := [1]
  rhsContracting := [0]
  lhsNonContracting := [0]
  rhsNonContracting := [1]
  lhsBatch := []
  rhsBatch := []
  wf := dot_S200000x1_S1x200_S200000x200_1_0_0_1_n_n_wf
def dot_S200000x200_S200x200_S200000x200_1_0_0_1_n_n : DotDims S200000x200 S200x200 S200000x200 where
  lhsContracting := [1]
  rhsContracting := [0]
  lhsNonContracting := [0]
  rhsNonContracting := [1]
  lhsBatch := []
  rhsBatch := []
  wf := dot_S200000x200_S200x200_S200000x200_1_0_0_1_n_n_wf
def dot_S200000x200_S200x1_S200000x1_1_0_0_1_n_n : DotDims S200000x200 S200x1 S200000x1 where
  lhsContracting := [1]
  rhsContracting := [0]
  lhsNonContracting := [0]
  rhsNonContracting := [1]
  lhsBatch := []
  rhsBatch := []
  wf := dot_S200000x200_S200x1_S200000x1_1_0_0_1_n_n_wf

class Facts : Prop extends Facts₀ where

variable [Facts]
-- ==== Proof.Spec.lean ====
/-
  The function both programs compute, node by node.

  A node carries one number `x` and the sum `a` of its in-neighbours' numbers. The graph convolution sends
  the pair to `a * w_rel + b_rel + x * w_root`; an eight-layer perceptron follows: the number is spread over
  200 hidden units (`h0 * w_in j + b_in j`, rectified), six dense 200 × 200 layers each followed by a
  rectifier, and a last dense layer to one number, whose logistic is the node's result.

  Every sum here is a finite sum in the extended reals; only commutativity of the product is ever used to
  compare two arrangements of one term, so no entry needs to be finite.
-/
import Idealize.ShloMosaic.PureOps.Ideal
import Idealize.ShloMosaic.Lib.ValueIdx

noncomputable section

namespace Cert.GraphMlp

open Idealize.ShloMosaic Idealize.ShloMosaic.ValueIdx

/-- The graph convolution at one node: the neighbours' sum `a` and the node's own number `x`. -/
def conv (wrel brel wroot a x : EReal) : EReal := a * wrel + brel + x * wroot

/-- The first layer: one number spread over 200 hidden units, rectified. -/
def spread (win bin : Fin 200 → EReal) (h0 : EReal) : Fin 200 → EReal :=
  fun j => max (h0 * win j + bin j) 0

/-- One hidden layer on a row of 200 activations: `h ↦ relu (h · W + b)`, `W` indexed (input unit, output unit). -/
def dense (W : Fin 200 → Fin 200 → EReal) (b : Fin 200 → EReal) (h : Fin 200 → EReal) : Fin 200 → EReal :=
  fun j => max ((∑ k : Fin 200, h k * W k j) + b j) 0

/-- The last layer and the logistic. -/
def head (wout : Fin 200 → EReal) (bout : EReal) (h : Fin 200 → EReal) : EReal :=
  Ideal.logistic ((∑ k : Fin 200, h k * wout k) + bout)

/-- The weights, entry by entry. -/
structure Params where
  wrel : EReal
  brel : EReal
  wroot : EReal
  win : Fin 200 → EReal
  bin : Fin 200 → EReal
  whid : Fin 6 → Fin 200 → Fin 200 → EReal
  bhid : Fin 6 → Fin 200 → EReal
  wout : Fin 200 → EReal
  bout : EReal

/-- The hidden activations of a node after the first layer and `l` dense layers. -/
def hidden (P : Params) (h0 : EReal) : Fin 7 → Fin 200 → EReal
  | ⟨0, _⟩ => spread P.win P.bin h0
  | ⟨1, _⟩ => dense (P.whid 0) (P.bhid 0) (spread P.win P.bin h0)
  | ⟨2, _⟩ => dense (P.whid 1) (P.bhid 1) (dense (P.whid 0) (P.bhid 0) (spread P.win P.bin h0))
  | ⟨3, _⟩ => dense (P.whid 2) (P.bhid 2) (dense (P.whid 1) (P.bhid 1) (dense (P.whid 0) (P.bhid 0) (spread P.win P.bin h0)))
  | ⟨4, _⟩ => dense (P.whid 3) (P.bhid 3) (dense (P.whid 2) (P.bhid 2) (dense (P.whid 1) (P.bhid 1) (dense (P.whid 0) (P.bhid 0) (spread P.win P.bin h0))))
  | ⟨5, _⟩ => dense (P.whid 4) (P.bhid 4) (dense (P.whid 3) (P.bhid 3) (dense (P.whid 2) (P.bhid 2) (dense (P.whid 1) (P.bhid 1) (dense (P.whid 0) (P.bhid 0) (spread P.win P.bin h0)))))
  | ⟨6, _⟩ => dense (P.whid 5) (P.bhid 5) (dense (P.whid 4) (P.bhid 4) (dense (P.whid 3) (P.bhid 3) (dense (P.whid 2) (P.bhid 2) (dense (P.whid 1) (P.bhid 1) (dense (P.whid 0) (P.bhid 0) (spread P.win P.bin h0))))))

/-- A node's result from its neighbours' sum `a` and its own number `x`. -/
def node (P : Params) (a x : EReal) : EReal :=
  head P.wout P.bout (hidden P (conv P.wrel P.brel P.wroot a x) 6)

/-- The weights read off the argument arrays: `w_rel [1,1]`, `b_rel [1]`, `w_root [1,1]`, `w_in [1,200]`,
    `b_in [200]`, `w_hid [6,200,200]` (layer, input unit, output unit), `b_hid [6,200]`, `w_out [200,1]`, `b_out [1]`. -/
def paramsOf
    (wrel : (⟨2, ![1, 1]⟩ : Shape).Idx → EReal) (brel : (⟨1, ![1]⟩ : Shape).Idx → EReal)
    (wroot : (⟨2, ![1, 1]⟩ : Shape).Idx → EReal) (win : (⟨2, ![1, 200]⟩ : Shape).Idx → EReal)
    (bin : (⟨1, ![200]⟩ : Shape).Idx → EReal) (whid : (⟨3, ![6, 200, 200]⟩ : Shape).Idx → EReal)
    (bhid : (⟨2, ![6, 200]⟩ : Shape).Idx → EReal) (wout : (⟨2, ![200, 1]⟩ : Shape).Idx → EReal)
    (bout : (⟨1, ![1]⟩ : Shape).Idx → EReal) : Params where
  wrel := wrel (ix2 (0 : Fin 1) (0 : Fin 1))
  brel := brel (ix1 (0 : Fin 1))
  wroot := wroot (ix2 (0 : Fin 1) (0 : Fin 1))
  win := fun j => win (ix2 (0 : Fin 1) j)
  bin := fun j => bin (ix1 j)
  whid := fun l k j => whid (ix3 l k j)
  bhid := fun l j => bhid (ix2 l j)
  wout := fun k => wout (ix2 k (0 : Fin 1))
  bout := bout (ix1 (0 : Fin 1))

/-- The whole result array `[200000, 1]` from the aggregated array `a` and the nodes' numbers `x` (both
    `[200000, 1]`): entry by entry the node function. -/
def G (P : Params) (a x : (⟨2, ![200000, 1]⟩ : Shape).Idx → EReal) : (⟨2, ![200000, 1]⟩ : Shape).Idx → EReal :=
  fun i => node P (a i) (x i)

end Cert.GraphMlp

end
-- ==== Proof.LibPlainMatmul.lean ====
/-
  A plain matrix product read at an entry.

  For the dimension numbers "contract the left operand's second axis with the right operand's first" an `[M, K]` by
  `[K, N]` product, accumulated into a zero array, has at row `p` and column `c` the entry
  `∑ k, W p k · X k c` over the extended reals: the contraction position is its one coordinate `k`, the left operand is
  read at `(p, k)` and the right one at `(k, c)`. The same reading holds of a host `dot_general` with those dimension
  numbers, which has no accumulator.
-/
import Idealize.ShloMosaic.PureOps.Ideal.Laws
import Idealize.ShloMosaic.Lib.ValueIdx

noncomputable section

namespace Cert.LibPlainMatmul

open Idealize.ShloMosaic Idealize.ShloMosaic.ValueIdx
open scoped BigOperators

variable (M K N : ℕ)

/-- The left operand's row coordinate is the result's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's column coordinate is the contraction position. -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand's row coordinate is the contraction position. -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand's column coordinate is the result's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The sum over the contraction positions, re-indexed by the one coordinate. -/
theorem sum_contr {φ₁ φ₂ : FTy} (W : FVec Ideal ⟨2, ![M, K]⟩ φ₁) (X : FVec Ideal ⟨2, ![K, N]⟩ φ₂) (p : Fin M) (c : Fin N) :
    (∑ q : (DotDims.plain M K N).contr.Idx,
        W ((DotDims.plain M K N).lhsIdx (ix2 p c) q) * X ((DotDims.plain M K N).rhsIdx (ix2 p c) q))
      = ∑ k : Fin K, W (ix2 p k) * X (ix2 k c) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p c) ((contrEquiv1 (DotDims.plain M K N) K rfl rfl).symm k) = ix2 p k :=
    funext fun a => Fin.ext (by
      match a with
      | ⟨0, _⟩ => exact lhs_row M K N _ _
      | ⟨1, _⟩ => exact (lhs_col M K N _ _).trans hk)
  have er : (DotDims.plain M K N).rhsIdx (ix2 p c) ((contrEquiv1 (DotDims.plain M K N) K rfl rfl).symm k) = ix2 k c :=
    funext fun a => Fin.ext (by
      match a with
      | ⟨0, _⟩ => exact (rhs_row M K N _ _).trans hk
      | ⟨1, _⟩ => exact rhs_col M K N _ _)
  rw [el, er]

/-- A kernel's matrix product into a zero accumulator, at an entry. -/
theorem matmul_zero_apply {φ₁ φ₂ : FTy} (prec : Option ContractPrecision) (W : FVec Ideal ⟨2, ![M, K]⟩ φ₁)
    (X : FVec Ideal ⟨2, ![K, N]⟩ φ₂) (p : Fin M) (c : Fin N) :
    matmul (DotDims.plain M K N) prec W X (constant (F := Ideal) ⟨2, ![M, N]⟩ .f32 0x00000000#32) (ix2 p c)
      = ∑ k : Fin K, W (ix2 p k) * X (ix2 k c) := by
  simp only [matmul]
  rw [Ideal.matmul_constant_zero_apply]
  exact sum_contr M K N W X p c

/-- The same with each product's factors swapped: the form in which a product computed in a transposed layout
    (`W · Xᵀ` laid out as features by batch) meets the row-major product `X · Wᵀ`. -/
theorem matmul_zero_apply_comm {φ₁ φ₂ : FTy} (prec : Option ContractPrecision) (W : FVec Ideal ⟨2, ![M, K]⟩ φ₁)
    (X : FVec Ideal ⟨2, ![K, N]⟩ φ₂) (p : Fin M) (c : Fin N) :
    matmul (DotDims.plain M K N) prec W X (constant (F := Ideal) ⟨2, ![M, N]⟩ .f32 0x00000000#32) (ix2 p c)
      = ∑ k : Fin K, X (ix2 k c) * W (ix2 p k) := by
  rw [matmul_zero_apply]
  exact Finset.sum_congr rfl fun k _ => mul_comm _ _

/-- A host product, at an entry. -/
theorem dotGeneral_apply {φ₁ φ₂ : FTy} (prec : Option ContractPrecision) (W : FVec Ideal ⟨2, ![M, K]⟩ φ₁)
    (X : FVec Ideal ⟨2, ![K, N]⟩ φ₂) (p : Fin M) (c : Fin N) :
    Host.dotGeneral (DotDims.plain M K N) prec W X (ix2 p c) = ∑ k : Fin K, W (ix2 p k) * X (ix2 k c) := by
  simp only [Host.dotGeneral]
  rw [Ideal.dotGeneral_apply]
  exact sum_contr M K N W X p c

end Cert.LibPlainMatmul

end
-- ==== Proof.LibColumnBroadcast.lean ====
/-
  A column spread over many columns, read at an entry.

  A `vector.broadcast` of an `[a, 1]` array to `[a, b]` repeats the one column `b` times: the entry at row `p` and column
  `c` is the column's entry at row `p`, whatever `c`. (The companion of the row form `[1, b] → [a, b]`; it is what a
  reduction that keeps its axis, or a bias turned into a column, is spread back with.)
-/
import Idealize.ShloMosaic.Lib.Pipeline.Value
import Idealize.ShloMosaic.Lib.ValueIdx

namespace Cert.LibColumnBroadcast

open Idealize.ShloMosaic Idealize.ShloMosaic.ValueIdx

/-- An `[a, 1]` array broadcast to `[a, b]` reads, at `(p, c)`, the operand's one column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumnBroadcast
-- ==== Proof.KernelBody.lean ====
/-
  The kernel's body at one node of a block.

  A block holds 8192 nodes along its columns; every intermediate value is a `[200, 8192]` array whose column
  `b` is the row of 200 activations of node `b`. A dense layer of the body is `Wᵗ · H + bias column`, rectified:
  its entry `(j, b)` is `∑ k, Wᵗ(j,k) · H(k,b) + bias(j)`, which is the row-major layer `∑ k, h(k) · W(k,j) + bias(j)`
  of node `b`'s activations with each product's factors swapped. So column `b` of what the body stores is the node
  function of the two numbers the block holds for node `b`.
-/
import proofs.«142159_j85186381349438_2_alg».proof.Proof.Gen.KernelIdeal.Skeleton
import proofs.«142159_j85186381349438_2_alg».proof.Proof.Spec
import proofs.«142159_j85186381349438_2_alg».proof.Proof.LibPlainMatmul
import proofs.«142159_j85186381349438_2_alg».proof.Proof.LibColumnBroadcast
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx Cert.GraphMlp

/-- Column `b` of a `[200, 8192]` value: the 200 activations of the block's node `b`. -/
def col {φ : FTy} (H : FVec Ideal S200x8192 φ) (b : Fin 8192) : Fin 200 → EReal := fun k => H (ix2 k b)

/-- The printed dimension numbers of the hidden layers' product are the plain ones. -/
theorem dot_hidden : dot_S200x200_S200x8192_S200x8192_1_0_0_1_n_n = DotDims.plain 200 200 8192 := rfl

/-- The printed dimension numbers of the last layer's product are the plain ones. -/
theorem dot_last : dot_S1x200_S200x8192_S1x8192_1_0_0_1_n_n = DotDims.plain 1 200 8192 := rfl

/-- The body's zero splat is the number zero. -/
theorem zero_word : (Scalar.ofBits (F := Ideal) .f32 0x00000000#32 : Ideal .f32) = (0 : EReal) :=
  Ideal.ofBits_zero_f32

/-- One hidden layer of the body, as printed: the layer's `[1,200,200]` weight slab `Wv` (output unit, input unit) and
    `[1,200,1]` bias slab `bv`, applied to the activations `H`. -/
def layer (Wv : Vec Ideal S1x200x200 .bf16) (bv : Vec Ideal S1x200x1 .f32) (H : FVec Ideal S200x8192 .bf16) :
    FVec Ideal S200x8192 .f32 :=
  maximumf (addf (matmul dot_S200x200_S200x8192_S200x8192_1_0_0_1_n_n none (shapeCast S200x200 Wv shapeCasts_S1x200x200_S200x200 : FVec Ideal S200x200 .bf16) H
      (constant S200x8192 .f32 0x00000000#32))
    (broadcastTo S200x8192 (shapeCast S200x1 bv shapeCasts_S1x200x1_S200x1 : FVec Ideal S200x1 .f32) broadcasts_S200x1_S200x8192))
    (broadcast S200x8192 (Scalar.ofBits .f32 0x00000000#32))

/-- Column `b` of a hidden layer's result is the dense layer of column `b` of its operand, the weights read
    (input unit `k`, output unit `j`) ↦ slab entry `(0, j, k)`. -/
theorem layer_col (Wv : Vec Ideal S1x200x200 .bf16) (bv : Vec Ideal S1x200x1 .f32) (H : FVec Ideal S200x8192 .bf16) (b : Fin 8192) :
    col (layer Wv bv H) b
      = dense (fun k j => Wv (ix3 (0 : Fin 1) j k)) (fun j => bv (ix3 (0 : Fin 1) j (0 : Fin 1))) (col H b) := by
  funext j
  have hm := Cert.LibPlainMatmul.matmul_zero_apply_comm 200 200 8192 none
    (shapeCast S200x200 Wv shapeCasts_S1x200x200_S200x200 : FVec Ideal S200x200 .bf16) H j b
  have hb := Cert.LibColumnBroadcast.broadcastTo_a1_ab_apply (shapeCast S200x1 bv shapeCasts_S1x200x1_S200x1 : FVec Ideal S200x1 .f32)
    broadcasts_S200x1_S200x8192 j b
  show max (matmul dot_S200x200_S200x8192_S200x8192_1_0_0_1_n_n none (shapeCast S200x200 Wv shapeCasts_S1x200x200_S200x200 : FVec Ideal S200x200 .bf16) H
      (constant S200x8192 .f32 0x00000000#32) (ix2 j b)
      + broadcastTo S200x8192 (shapeCast S200x1 bv shapeCasts_S1x200x1_S200x1 : FVec Ideal S200x1 .f32) broadcasts_S200x1_S200x8192 (ix2 j b))
      (Scalar.ofBits (F := Ideal) .f32 0x00000000#32) = _
  rw [dot_hidden, hm, hb, zero_word, shapeCast_1ab_ab_apply]
  unfold dense col
  refine congrArg (fun s => max (s + bv (ix3 (0 : Fin 1) j (0 : Fin 1))) 0) (Finset.sum_congr rfl fun k _ => ?_)
  rw [shapeCast_1ab_ab_apply]

/-- The graph convolution and the first layer of the body, as printed: the two `[1, 8192]` blocks `a`, `x`, the three
    `[1,1]` scalars and the `[200,1]` columns `w_in`, `b_in`. -/
def first (a x : Vec Ideal S1x8192 .f32) (wrel brel wroot : Vec Ideal S1x1 .f32) (win bin : Vec Ideal S200x1 .f32) :
    FVec Ideal S200x8192 .f32 :=
  maximumf (addf (mulf (broadcastTo S200x8192 (shapeCast S200x1 win shapeCasts_S200x1_S200x1) broadcasts_S200x1_S200x8192)
      (broadcastTo S200x8192
        (addf (addf (mulf (shapeCast S1x8192 a shapeCasts_S1x8192_S1x8192) (broadcastTo S1x8192 wrel broadcasts_S1x1_S1x8192))
            (broadcastTo S1x8192 (shapeCast S1x1 brel shapeCasts_S1x1_S1x1) broadcasts_S1x1_S1x8192))
          (mulf (shapeCast S1x8192 x shapeCasts_S1x8192_S1x8192) (broadcastTo S1x8192 wroot broadcasts_S1x1_S1x8192)))
        broadcasts_S1x8192_S200x8192))
    (broadcastTo S200x8192 (shapeCast S200x1 bin shapeCasts_S200x1_S200x1) broadcasts_S200x1_S200x8192))
    (broadcast S200x8192 (Scalar.ofBits .f32 0x00000000#32))

/-- Column `b` of the first layer's result: the convolution of node `b`'s two numbers, spread over the hidden units. -/
theorem first_col (a x : Vec Ideal S1x8192 .f32) (wrel brel wroot : Vec Ideal S1x1 .f32) (win bin : Vec Ideal S200x1 .f32)
    (b : Fin 8192) :
    col (first a x wrel brel wroot win bin) b
      = spread (fun j => win (ix2 j (0 : Fin 1))) (fun j => bin (ix2 j (0 : Fin 1)))
          (conv (wrel (ix2 (0 : Fin 1) (0 : Fin 1))) (brel (ix2 (0 : Fin 1) (0 : Fin 1))) (wroot (ix2 (0 : Fin 1) (0 : Fin 1)))
            (a (ix2 (0 : Fin 1) b)) (x (ix2 (0 : Fin 1) b))) := by
  funext j
  have hw := Cert.LibColumnBroadcast.broadcastTo_a1_ab_apply (shapeCast S200x1 win shapeCasts_S200x1_S200x1)
    broadcasts_S200x1_S200x8192 j b
  have hbi := Cert.LibColumnBroadcast.broadcastTo_a1_ab_apply (shapeCast S200x1 bin shapeCasts_S200x1_S200x1)
    broadcasts_S200x1_S200x8192 j b
  have h1 := Cert.LibColumnBroadcast.broadcastTo_a1_ab_apply wrel broadcasts_S1x1_S1x8192 (0 : Fin 1) b
  have h2 := Cert.LibColumnBroadcast.broadcastTo_a1_ab_apply (shapeCast S1x1 brel shapeCasts_S1x1_S1x1) broadcasts_S1x1_S1x8192 (0 : Fin 1) b
  have h3 := Cert.LibColumnBroadcast.broadcastTo_a1_ab_apply wroot broadcasts_S1x1_S1x8192 (0 : Fin 1) b
  unfold col first spread conv
  simp only [maximumf_apply, addf_apply, mulf_apply, broadcast_apply]
  rw [hw, hbi, broadcastTo_1b_ab_apply]
  simp only [addf_apply, mulf_apply]
  rw [h1, h2, h3, zero_word]
  simp only [shapeCast_self]
  rw [mul_comm]

/-- The last layer of the body, as printed: the `[1,200]` row `w_out`, the `[1,1]` scalar `b_out`. -/
def last (wout : Vec Ideal S1x200 .bf16) (bout : Vec Ideal S1x1 .f32) (H : FVec Ideal S200x8192 .bf16) : FVec Ideal S1x8192 .f32 :=
  logistic (addf (matmul dot_S1x200_S200x8192_S1x8192_1_0_0_1_n_n none (shapeCast S1x200 wout shapeCasts_S1x200_S1x200 : FVec Ideal S1x200 .bf16) H
      (constant S1x8192 .f32 0x00000000#32))
    (broadcastTo S1x8192 (shapeCast S1x1 bout shapeCasts_S1x1_S1x1 : FVec Ideal S1x1 .f32) broadcasts_S1x1_S1x8192))

/-- Entry `(0, b)` of the last layer's result is the head of column `b` of its operand. -/
theorem last_apply (wout : Vec Ideal S1x200 .bf16) (bout : Vec Ideal S1x1 .f32) (H : FVec Ideal S200x8192 .bf16) (b : Fin 8192) :
    last wout bout H (ix2 (0 : Fin 1) b)
      = head (fun k => wout (ix2 (0 : Fin 1) k)) (bout (ix2 (0 : Fin 1) (0 : Fin 1))) (col H b) := by
  have hm := Cert.LibPlainMatmul.matmul_zero_apply_comm 1 200 8192 none
    (shapeCast S1x200 wout shapeCasts_S1x200_S1x200 : FVec Ideal S1x200 .bf16) H (0 : Fin 1) b
  have hb := Cert.LibColumnBroadcast.broadcastTo_a1_ab_apply (shapeCast S1x1 bout shapeCasts_S1x1_S1x1 : FVec Ideal S1x1 .f32)
    broadcasts_S1x1_S1x8192 (0 : Fin 1) b
  show Ideal.logistic (matmul dot_S1x200_S200x8192_S1x8192_1_0_0_1_n_n none (shapeCast S1x200 wout shapeCasts_S1x200_S1x200 : FVec Ideal S1x200 .bf16) H
      (constant S1x8192 .f32 0x00000000#32) (ix2 (0 : Fin 1) b)
      + broadcastTo S1x8192 (shapeCast S1x1 bout shapeCasts_S1x1_S1x1 : FVec Ideal S1x1 .f32) broadcasts_S1x1_S1x8192 (ix2 (0 : Fin 1) b)) = _
  rw [dot_last, hm, hb]
  simp only [shapeCast_self]
  rfl

/-- Narrowing the activations to the product's input format keeps every column (a change of format is the identity on
    the extended reals). -/
theorem col_truncf (X : FVec Ideal S200x8192 .f32) (b : Fin 8192) : col (truncf .bf16 X bitsLt_bf16_f32) b = col X b := rfl

/-- A layer's weights as the dense layer reads them: (input unit `k`, output unit `j`) ↦ the slab's entry `(0, j, k)`. -/
def slabW (Wv : Vec Ideal S1x200x200 .bf16) : Fin 200 → Fin 200 → EReal := fun k j => Wv (ix3 (0 : Fin 1) j k)

/-- A layer's bias: output unit `j` ↦ the slab's entry `(0, j, 0)`. -/
def slabB (bv : Vec Ideal S1x200x1 .f32) : Fin 200 → EReal := fun j => bv (ix3 (0 : Fin 1) j (0 : Fin 1))

/-- The value the body stores, from what it loads: the printed payloads are the first layer, the six hidden layers and the
    last layer composed, with a narrowing between consecutive layers. -/
theorem payload_eq (a x : Vec Ideal S1x8192 .f32) (wrel brel wroot : Vec Ideal S1x1 .f32) (win bin : Vec Ideal S200x1 .f32)
    (W0 : Vec Ideal S1x200x200 .bf16) (b0 : Vec Ideal S1x200x1 .f32) (W1 : Vec Ideal S1x200x200 .bf16) (b1 : Vec Ideal S1x200x1 .f32)
    (W2 : Vec Ideal S1x200x200 .bf16) (b2 : Vec Ideal S1x200x1 .f32) (W3 : Vec Ideal S1x200x200 .bf16) (b3 : Vec Ideal S1x200x1 .f32)
    (W4 : Vec Ideal S1x200x200 .bf16) (b4 : Vec Ideal S1x200x1 .f32) (W5 : Vec Ideal S1x200x200 .bf16) (b5 : Vec Ideal S1x200x1 .f32)
    (wout : Vec Ideal S1x200 .bf16) (bout : Vec Ideal S1x1 .f32) :
    k0_pay1 (F := Ideal) (k0_pay3 (k0_pay2 a x wrel brel wroot win bin W0 b0) W1 b1 W2 b2 W3 b3) (k0_pay4 W4) b4 W5 b5 wout bout
      = last wout bout (truncf .bf16 (layer W5 b5 (truncf .bf16 (layer W4 b4 (truncf .bf16 (layer W3 b3 (truncf .bf16
          (layer W2 b2 (truncf .bf16 (layer W1 b1 (truncf .bf16 (layer W0 b0 (truncf .bf16
            (first a x wrel brel wroot win bin) bitsLt_bf16_f32)) bitsLt_bf16_f32)) bitsLt_bf16_f32)) bitsLt_bf16_f32))
          bitsLt_bf16_f32)) bitsLt_bf16_f32)) bitsLt_bf16_f32) := rfl

/-- Entry `(0, b)` of what the body stores: the perceptron of node `b`'s convolution, layer by layer. -/
theorem payload_apply (a x : Vec Ideal S1x8192 .f32) (wrel brel wroot : Vec Ideal S1x1 .f32) (win bin : Vec Ideal S200x1 .f32)
    (W0 : Vec Ideal S1x200x200 .bf16) (b0 : Vec Ideal S1x200x1 .f32) (W1 : Vec Ideal S1x200x200 .bf16) (b1 : Vec Ideal S1x200x1 .f32)
    (W2 : Vec Ideal S1x200x200 .bf16) (b2 : Vec Ideal S1x200x1 .f32) (W3 : Vec Ideal S1x200x200 .bf16) (b3 : Vec Ideal S1x200x1 .f32)
    (W4 : Vec Ideal S1x200x200 .bf16) (b4 : Vec Ideal S1x200x1 .f32) (W5 : Vec Ideal S1x200x200 .bf16) (b5 : Vec Ideal S1x200x1 .f32)
    (wout : Vec Ideal S1x200 .bf16) (bout : Vec Ideal S1x1 .f32) (b : Fin 8192) :
    k0_pay1 (F := Ideal) (k0_pay3 (k0_pay2 a x wrel brel wroot win bin W0 b0) W1 b1 W2 b2 W3 b3) (k0_pay4 W4) b4 W5 b5 wout bout
        (ix2 (0 : Fin 1) b)
      = head (fun k => wout (ix2 (0 : Fin 1) k)) (bout (ix2 (0 : Fin 1) (0 : Fin 1)))
          (dense (slabW W5) (slabB b5) (dense (slabW W4) (slabB b4) (dense (slabW W3) (slabB b3) (dense (slabW W2) (slabB b2)
            (dense (slabW W1) (slabB b1) (dense (slabW W0) (slabB b0)
              (spread (fun j => win (ix2 j (0 : Fin 1))) (fun j => bin (ix2 j (0 : Fin 1)))
                (conv (wrel (ix2 (0 : Fin 1) (0 : Fin 1))) (brel (ix2 (0 : Fin 1) (0 : Fin 1))) (wroot (ix2 (0 : Fin 1) (0 : Fin 1)))
                  (a (ix2 (0 : Fin 1) b)) (x (ix2 (0 : Fin 1) b)))))))))) := by
  rw [payload_eq, last_apply, col_truncf, layer_col, col_truncf, layer_col, col_truncf, layer_col, col_truncf, layer_col,
    col_truncf, layer_col, col_truncf, layer_col, col_truncf, first_col]
  rfl

end Cert.KernelIdeal.Body

end
-- ==== Proof.KernelBlocks.lean ====
/-
  From blocks to the array.

  The output `[1, 204800]` is cut into 25 blocks of 8192 columns; point `t` of the grid reads columns
  `8192 t … 8192 t + 8191` of the two padded rows (the neighbours' sums and the nodes' own numbers), reads the
  weights whole, and writes the same columns of the output. So the output array ends holding, at column `i`,
  the node function of the two rows' entries at column `i` — one function of the arrays as the region finds them.
-/
import proofs.«142159_j85186381349438_2_alg».proof.Proof.Gen.KernelIdeal.Frame
import proofs.«142159_j85186381349438_2_alg».proof.Proof.KernelBody
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.Pipeline (Dat)

namespace Cert.KernelIdeal.Blocks

open Cert.KernelIdeal Cert.KernelIdeal.Gen Cert.KernelIdeal.Body Idealize.ShloMosaic.ValueIdx Cert.GraphMlp

theorem hz2 : (![0, 0] : Fin 2 → Nat) = fun _ => 0 := funext fun a => by fin_cases a <;> rfl

/-- The weights as the body's blocks hold them: scalars at `(0,0)`, `w_in` and `b_in` as columns, the hidden weights
    transposed (layer, output unit, input unit), the hidden biases as columns, `w_out` as a row. -/
def blockParams (x2 x3 x4 : Vec Ideal S1x1 .f32) (x5 x6 : Vec Ideal S200x1 .f32) (x7 : Vec Ideal S6x200x200 .bf16)
    (x8 : Vec Ideal S6x200x1 .f32) (x9 : Vec Ideal S1x200 .bf16) (x10 : Vec Ideal S1x1 .f32) : Params where
  wrel := x2 (ix2 (0 : Fin 1) (0 : Fin 1))
  brel := x3 (ix2 (0 : Fin 1) (0 : Fin 1))
  wroot := x4 (ix2 (0 : Fin 1) (0 : Fin 1))
  win := fun j => x5 (ix2 j (0 : Fin 1))
  bin := fun j => x6 (ix2 j (0 : Fin 1))
  whid := fun l k j => x7 (ix3 l j k)
  bhid := fun l j => x8 (ix3 l j (0 : Fin 1))
  wout := fun k => x9 (ix2 (0 : Fin 1) k)
  bout := x10 (ix2 (0 : Fin 1) (0 : Fin 1))

/-- Layer `o`'s slab of the stacked hidden weights, read as the dense layer reads it. -/
theorem slabW_ld (x7 : Vec Ideal S6x200x200 .bf16) (o : Nat) (ho : o < 6) (inb) :
    slabW (View.ld x7 (Rect.unit (s := S6x200x200) ![o, 0, 0] S1x200x200.size inb))
      = fun k j => x7 (ix3 (⟨o, ho⟩ : Fin 6) j k) := by
  funext k j
  unfold slabW
  show x7 _ = x7 _
  refine congrArg x7 (funext fun a => Fin.ext ?_)
  match a with
  | ⟨0, _⟩ => show o + 1 * 0 = o; omega
  | ⟨1, _⟩ => show 0 + 1 * j.val = j.val; omega
  | ⟨2, _⟩ => show 0 + 1 * k.val = k.val; omega

/-- Layer `o`'s slab of the stacked hidden biases. -/
theorem slabB_ld (x8 : Vec Ideal S6x200x1 .f32) (o : Nat) (ho : o < 6) (inb) :
    slabB (View.ld x8 (Rect.unit (s := S6x200x1) ![o, 0, 0] S1x200x1.size inb))
      = fun j => x8 (ix3 (⟨o, ho⟩ : Fin 6) j (0 : Fin 1)) := by
  funext j
  unfold slabB
  show x8 _ = x8 _
  refine congrArg x8 (funext fun a => Fin.ext ?_)
  match a with
  | ⟨0, _⟩ => show o + 1 * 0 = o; omega
  | ⟨1, _⟩ => show 0 + 1 * j.val = j.val; omega
  | ⟨2, _⟩ => show 0 + 1 * 0 = 0; omega

/-- WHAT THE BODY LEAVES in the output block, at column `b`: the node function of the two input blocks' entries at
    column `b`, with the weights the other blocks hold. -/
theorem out_apply (x0 x1 : Vec Ideal S1x8192 .f32) (x2 x3 x4 : Vec Ideal S1x1 .f32) (x5 x6 : Vec Ideal S200x1 .f32)
    (x7 : Vec Ideal S6x200x200 .bf16) (x8 : Vec Ideal S6x200x1 .f32) (x9 : Vec Ideal S1x200 .bf16) (x10 : Vec Ideal S1x1 .f32)
    (b : Fin 8192) :
    out0_11 (F := Ideal) x0 x1 x2 x3 x4 x5 x6 x7 x8 x9 x10 (ix2 (0 : Fin 1) b)
      = node (blockParams x2 x3 x4 x5 x6 x7 x8 x9 x10) (x0 (ix2 (0 : Fin 1) b)) (x1 (ix2 (0 : Fin 1) b)) := by
  unfold out0_11
  rw [View.canon_unit_zero hz2, payload_apply]
  rw [slabW_ld x7 0 (by decide), slabW_ld x7 1 (by decide), slabW_ld x7 2 (by decide), slabW_ld x7 3 (by decide),
    slabW_ld x7 4 (by decide), slabW_ld x7 5 (by decide), slabB_ld x8 0 (by decide), slabB_ld x8 1 (by decide),
    slabB_ld x8 2 (by decide), slabB_ld x8 3 (by decide), slabB_ld x8 4 (by decide), slabB_ld x8 5 (by decide)]
  have e0 : View.ld x0 r0_0 = x0 := View.ld_unit_zero hz2 _ x0
  have e1 : View.ld x1 r0_0 = x1 := View.ld_unit_zero hz2 _ x1
  have e2 : View.ld x2 r0_1 = x2 := View.ld_unit_zero hz2 _ x2
  have e3 : View.ld x3 r0_1 = x3 := View.ld_unit_zero hz2 _ x3
  have e4 : View.ld x4 r0_1 = x4 := View.ld_unit_zero hz2 _ x4
  have e5 : View.ld x5 r0_2 = x5 := View.ld_unit_zero hz2 _ x5
  have e6 : View.ld x6 r0_2 = x6 := View.ld_unit_zero hz2 _ x6
  have e9 : View.ld x9 r0_15 = x9 := View.ld_unit_zero hz2 _ x9
  have e10 : View.ld x10 r0_1 = x10 := View.ld_unit_zero hz2 _ x10
  rw [e0, e1, e2, e3, e4, e5, e6, e9, e10]
  rfl

variable (m : (ℓ : Loc nD τ sig) → Buf (Elt Ideal) ℓ) (ρ : Dev nD → PrngReg)

/-- The printed index maps, decided once over the 25 points: the two node rows and the output move together, block
    `t` of each at column block `t`; every weight block stays at the origin. -/
theorem idx_facts : ∀ t : Fin cfg0.N, win0_0.index t (0 : Fin 2) = 0
    ∧ win0_0.index t (1 : Fin 2) = t.val
    ∧ win0_1.index t (0 : Fin 2) = 0
    ∧ win0_1.index t (1 : Fin 2) = t.val
    ∧ win0_11.index t (0 : Fin 2) = 0
    ∧ win0_11.index t (1 : Fin 2) = t.val
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 3) = 0
    ∧ win0_7.index t (1 : Fin 3) = 0
    ∧ win0_7.index t (2 : Fin 3) = 0
    ∧ win0_8.index t (0 : Fin 3) = 0
    ∧ win0_8.index t (1 : Fin 3) = 0
    ∧ win0_8.index t (2 : Fin 3) = 0
    ∧ win0_9.index t (0 : Fin 2) = 0
    ∧ win0_9.index t (1 : Fin 2) = 0
    ∧ win0_10.index t (0 : Fin 2) = 0
    ∧ win0_10.index t (1 : Fin 2) = 0 :=
  (by decide +kernel : ∀ t : Fin grid0.N, _)

/-- Window 2's block at any point is its whole array. -/
theorem iblk2 (c : Dev nD) (t : Fin cfg0.N) (y : S1x1.Idx) : iblk m c 2 t y = V m c main_arg2 y := by
  obtain ⟨a00, a01, a10, a11, o0, o1, z2_0, z2_1, z3_0, z3_1, z4_0, z4_1, z5_0, z5_1, z6_0, z6_1, z7_0, z7_1, z7_2, z8_0, z8_1, z8_2, z9_0, z9_1, z10_0, z10_1⟩ := idx_facts t
  unfold iblk
  rw [View.read_apply]
  show V m c main_arg2 _ = V m c main_arg2 y
  refine congrArg (V m c main_arg2) (funext fun a => Fin.ext ?_)
  match a with
  | ⟨0, _⟩ => show win0_2.index t (0 : Fin 2) * 1 + 1 * (y 0).val = (y 0).val; rw [z2_0]; omega
  | ⟨1, _⟩ => show win0_2.index t (1 : Fin 2) * 1 + 1 * (y 1).val = (y 1).val; rw [z2_1]; omega

/-- Window 3's block at any point is its whole array. -/
theorem iblk3 (c : Dev nD) (t : Fin cfg0.N) (y : S1x1.Idx) : iblk m c 3 t y = V m c main_v20 y := by
  obtain ⟨a00, a01, a10, a11, o0, o1, z2_0, z2_1, z3_0, z3_1, z4_0, z4_1, z5_0, z5_1, z6_0, z6_1, z7_0, z7_1, z7_2, z8_0, z8_1, z8_2, z9_0, z9_1, z10_0, z10_1⟩ := idx_facts t
  unfold iblk
  rw [View.read_apply]
  show V m c main_v20 _ = V m c main_v20 y
  refine congrArg (V m c main_v20) (funext fun a => Fin.ext ?_)
  match a with
  | ⟨0, _⟩ => show win0_3.index t (0 : Fin 2) * 1 + 1 * (y 0).val = (y 0).val; rw [z3_0]; omega
  | ⟨1, _⟩ => show win0_3.index t (1 : Fin 2) * 1 + 1 * (y 1).val = (y 1).val; rw [z3_1]; omega

/-- Window 4's block at any point is its whole array. -/
theorem iblk4 (c : Dev nD) (t : Fin cfg0.N) (y : S1x1.Idx) : iblk m c 4 t y = V m c main_arg4 y := by
  obtain ⟨a00, a01, a10, a11, o0, o1, z2_0, z2_1, z3_0, z3_1, z4_0, z4_1, z5_0, z5_1, z6_0, z6_1, z7_0, z7_1, z7_2, z8_0, z8_1, z8_2, z9_0, z9_1, z10_0, z10_1⟩ := idx_facts t
  unfold iblk
  rw [View.read_apply]
  show V m c main_arg4 _ = V m c main_arg4 y
  refine congrArg (V m c main_arg4) (funext fun a => Fin.ext ?_)
  match a with
  | ⟨0, _⟩ => show win0_4.index t (0 : Fin 2) * 1 + 1 * (y 0).val = (y 0).val; rw [z4_0]; omega
  | ⟨1, _⟩ => show win0_4.index t (1 : Fin 2) * 1 + 1 * (y 1).val = (y 1).val; rw [z4_1]; omega

/-- Window 5's block at any point is its whole array. -/
theorem iblk5 (c : Dev nD) (t : Fin cfg0.N) (y : S200x1.Idx) : iblk m c 5 t y = V m c main_v21 y := by
  obtain ⟨a00, a01, a10, a11, o0, o1, z2_0, z2_1, z3_0, z3_1, z4_0, z4_1, z5_0, z5_1, z6_0, z6_1, z7_0, z7_1, z7_2, z8_0, z8_1, z8_2, z9_0, z9_1, z10_0, z10_1⟩ := idx_facts t
  unfold iblk
  rw [View.read_apply]
  show V m c main_v21 _ = V m c main_v21 y
  refine congrArg (V m c main_v21) (funext fun a => Fin.ext ?_)
  match a with
  | ⟨0, _⟩ => show win0_5.index t (0 : Fin 2) * 200 + 1 * (y 0).val = (y 0).val; rw [z5_0]; omega
  | ⟨1, _⟩ => show win0_5.index t (1 : Fin 2) * 1 + 1 * (y 1).val = (y 1).val; rw [z5_1]; omega

/-- Window 6's block at any point is its whole array. -/
theorem iblk6 (c : Dev nD) (t : Fin cfg0.N) (y : S200x1.Idx) : iblk m c 6 t y = V m c main_v22 y := by
  obtain ⟨a00, a01, a10, a11, o0, o1, z2_0, z2_1, z3_0, z3_1, z4_0, z4_1, z5_0, z5_1, z6_0, z6_1, z7_0, z7_1, z7_2, z8_0, z8_1, z8_2, z9_0, z9_1, z10_0, z10_1⟩ := idx_facts t
  unfold iblk
  rw [View.read_apply]
  show V m c main_v22 _ = V m c main_v22 y
  refine congrArg (V m c main_v22) (funext fun a => Fin.ext ?_)
  match a with
  | ⟨0, _⟩ => show win0_6.index t (0 : Fin 2) * 200 + 1 * (y 0).val = (y 0).val; rw [z6_0]; omega
  | ⟨1, _⟩ => show win0_6.index t (1 : Fin 2) * 1 + 1 * (y 1).val = (y 1).val; rw [z6_1]; omega

/-- Window 7's block at any point is its whole array. -/
theorem iblk7 (c : Dev nD) (t : Fin cfg0.N) (y : S6x200x200.Idx) : iblk m c 7 t y = V m c main_v24 y := by
  obtain ⟨a00, a01, a10, a11, o0, o1, z2_0, z2_1, z3_0, z3_1, z4_0, z4_1, z5_0, z5_1, z6_0, z6_1, z7_0, z7_1, z7_2, z8_0, z8_1, z8_2, z9_0, z9_1, z10_0, z10_1⟩ := idx_facts t
  unfold iblk
  rw [View.read_apply]
  show V m c main_v24 _ = V m c main_v24 y
  refine congrArg (V m c main_v24) (funext fun a => Fin.ext ?_)
  match a with
  | ⟨0, _⟩ => show win0_7.index t (0 : Fin 3) * 6 + 1 * (y 0).val = (y 0).val; rw [z7_0]; omega
  | ⟨1, _⟩ => show win0_7.index t (1 : Fin 3) * 200 + 1 * (y 1).val = (y 1).val; rw [z7_1]; omega
  | ⟨2, _⟩ => show win0_7.index t (2 : Fin 3) * 200 + 1 * (y 2).val = (y 2).val; rw [z7_2]; omega

/-- Window 8's block at any point is its whole array. -/
theorem iblk8 (c : Dev nD) (t : Fin cfg0.N) (y : S6x200x1.Idx) : iblk m c 8 t y = V m c main_v25 y := by
  obtain ⟨a00, a01, a10, a11, o0, o1, z2_0, z2_1, z3_0, z3_1, z4_0, z4_1, z5_0, z5_1, z6_0, z6_1, z7_0, z7_1, z7_2, z8_0, z8_1, z8_2, z9_0, z9_1, z10_0, z10_1⟩ := idx_facts t
  unfold iblk
  rw [View.read_apply]
  show V m c main_v25 _ = V m c main_v25 y
  refine congrArg (V m c main_v25) (funext fun a => Fin.ext ?_)
  match a with
  | ⟨0, _⟩ => show win0_8.index t (0 : Fin 3) * 6 + 1 * (y 0).val = (y 0).val; rw [z8_0]; omega
  | ⟨1, _⟩ => show win0_8.index t (1 : Fin 3) * 200 + 1 * (y 1).val = (y 1).val; rw [z8_1]; omega
  | ⟨2, _⟩ => show win0_8.index t (2 : Fin 3) * 1 + 1 * (y 2).val = (y 2).val; rw [z8_2]; omega

/-- Window 9's block at any point is its whole array. -/
theorem iblk9 (c : Dev nD) (t : Fin cfg0.N) (y : S1x200.Idx) : iblk m c 9 t y = V m c main_v27 y := by
  obtain ⟨a00, a01, a10, a11, o0, o1, z2_0, z2_1, z3_0, z3_1, z4_0, z4_1, z5_0, z5_1, z6_0, z6_1, z7_0, z7_1, z7_2, z8_0, z8_1, z8_2, z9_0, z9_1, z10_0, z10_1⟩ := idx_facts t
  unfold iblk
  rw [View.read_apply]
  show V m c main_v27 _ = V m c main_v27 y
  refine congrArg (V m c main_v27) (funext fun a => Fin.ext ?_)
  match a with
  | ⟨0, _⟩ => show win0_9.index t (0 : Fin 2) * 1 + 1 * (y 0).val = (y 0).val; rw [z9_0]; omega
  | ⟨1, _⟩ => show win0_9.index t (1 : Fin 2) * 200 + 1 * (y 1).val = (y 1).val; rw [z9_1]; omega

/-- Window 10's block at any point is its whole array. -/
theorem iblk10 (c : Dev nD) (t : Fin cfg0.N) (y : S1x1.Idx) : iblk m c 10 t y = V m c main_v28 y := by
  obtain ⟨a00, a01, a10, a11, o0, o1, z2_0, z2_1, z3_0, z3_1, z4_0, z4_1, z5_0, z5_1, z6_0, z6_1, z7_0, z7_1, z7_2, z8_0, z8_1, z8_2, z9_0, z9_1, z10_0, z10_1⟩ := idx_facts t
  unfold iblk
  rw [View.read_apply]
  show V m c main_v28 _ = V m c main_v28 y
  refine congrArg (V m c main_v28) (funext fun a => Fin.ext ?_)
  match a with
  | ⟨0, _⟩ => show win0_10.index t (0 : Fin 2) * 1 + 1 * (y 0).val = (y 0).val; rw [z10_0]; omega
  | ⟨1, _⟩ => show win0_10.index t (1 : Fin 2) * 1 + 1 * (y 1).val = (y 1).val; rw [z10_1]; omega

/-- The output's block at point `t`, column `y`, sits at column `8192 t + y` of the output array; the two node rows' blocks
    at point `t` are read at the same place of their arrays. -/
theorem iblk0 (c : Dev nD) (t : Fin cfg0.N) (y : S1x8192.Idx) :
    iblk m c 0 t y = V m c main_v16 (((cfg0.win 11).blk t).view.emb y) := by
  obtain ⟨a00, a01, a10, a11, o0, o1, z2_0, z2_1, z3_0, z3_1, z4_0, z4_1, z5_0, z5_1, z6_0, z6_1, z7_0, z7_1, z7_2, z8_0, z8_1, z8_2, z9_0, z9_1, z10_0, z10_1⟩ := idx_facts t
  unfold iblk
  rw [View.read_apply]
  show V m c main_v16 _ = V m c main_v16 _
  refine congrArg (V m c main_v16) (funext fun a => Fin.ext ?_)
  match a with
  | ⟨0, _⟩ => show win0_0.index t (0 : Fin 2) * 1 + 1 * (y 0).val = win0_11.index t (0 : Fin 2) * 1 + 1 * (y 0).val; rw [a00, o0]
  | ⟨1, _⟩ => show win0_0.index t (1 : Fin 2) * 8192 + 1 * (y 1).val = win0_11.index t (1 : Fin 2) * 8192 + 1 * (y 1).val; rw [a01, o1]

theorem iblk1 (c : Dev nD) (t : Fin cfg0.N) (y : S1x8192.Idx) :
    iblk m c 1 t y = V m c main_v19 (((cfg0.win 11).blk t).view.emb y) := by
  obtain ⟨a00, a01, a10, a11, o0, o1, z2_0, z2_1, z3_0, z3_1, z4_0, z4_1, z5_0, z5_1, z6_0, z6_1, z7_0, z7_1, z7_2, z8_0, z8_1, z8_2, z9_0, z9_1, z10_0, z10_1⟩ := idx_facts t
  unfold iblk
  rw [View.read_apply]
  show V m c main_v19 _ = V m c main_v19 _
  refine congrArg (V m c main_v19) (funext fun a => Fin.ext ?_)
  match a with
  | ⟨0, _⟩ => show win0_1.index t (0 : Fin 2) * 1 + 1 * (y 0).val = win0_11.index t (0 : Fin 2) * 1 + 1 * (y 0).val; rw [a10, o0]
  | ⟨1, _⟩ => show win0_1.index t (1 : Fin 2) * 8192 + 1 * (y 1).val = win0_11.index t (1 : Fin 2) * 8192 + 1 * (y 1).val; rw [a11, o1]

/-- The weights as the region finds them, in the body's layout. -/
def regionParams (c : Dev nD) : Params :=
  blockParams (V m c main_arg2) (V m c main_v20) (V m c main_arg4) (V m c main_v21) (V m c main_v22) (V m c main_v24)
    (V m c main_v25) (V m c main_v27) (V m c main_v28)

/-- What the output array `[1, 204800]` ends holding: at every column the node function of the two padded rows' entries
    there, the rows and the weights as the region finds them. -/
def rowResult (c : Dev nD) : Buf (Elt Ideal) ((c : Thread nD τ).loc main_v29) :=
  fun i => node (regionParams m c) (V m c main_v16 i) (V m c main_v19 i)

/-- What the body leaves, at any index of the block. -/
theorem out_apply' (x0 x1 : Vec Ideal S1x8192 .f32) (x2 x3 x4 : Vec Ideal S1x1 .f32) (x5 x6 : Vec Ideal S200x1 .f32)
    (x7 : Vec Ideal S6x200x200 .bf16) (x8 : Vec Ideal S6x200x1 .f32) (x9 : Vec Ideal S1x200 .bf16) (x10 : Vec Ideal S1x1 .f32)
    (y : S1x8192.Idx) :
    out0_11 (F := Ideal) x0 x1 x2 x3 x4 x5 x6 x7 x8 x9 x10 y
      = node (blockParams x2 x3 x4 x5 x6 x7 x8 x9 x10) (x0 y) (x1 y) := by
  obtain ⟨p, q, rfl⟩ : ∃ (p : Fin 1) (q : Fin 8192), y = ix2 p q := ⟨y 0, y 1, eq_ix2 y⟩
  obtain rfl : p = 0 := Subsingleton.elim _ _
  exact out_apply x0 x1 x2 x3 x4 x5 x6 x7 x8 x9 x10 q

/-- The weights the blocks hold at any point are the weights the region finds. -/
theorem blockParams_iblk (c : Dev nD) (t : Fin cfg0.N) :
    blockParams (iblk m c 2 t) (iblk m c 3 t) (iblk m c 4 t) (iblk m c 5 t) (iblk m c 6 t) (iblk m c 7 t) (iblk m c 8 t)
      (iblk m c 9 t) (iblk m c 10 t) = regionParams m c := by
  unfold regionParams blockParams
  simp only [iblk2 m c t, iblk3 m c t, iblk4 m c t, iblk5 m c t, iblk6 m c t, iblk7 m c t, iblk8 m c t, iblk9 m c t, iblk10 m c t]

/-- WHAT POINT `t` WRITES BACK is block `t` of `rowResult`. -/
theorem flushed_eq (c : Dev nD) (t : Fin cfg0.N) :
    (dats m 0 c).flushed 11 t = ((cfg0.win 11).blk t).view.read (Elt Ideal) (rowResult m c) := by
  show (cfg0.win 11).cut (grid0.coords t) ((dats m 0 c).after 11 t) = _
  rw [after0_11]
  funext y
  refine (out_apply' (iblk m c 0 t) (iblk m c 1 t) (iblk m c 2 t) (iblk m c 3 t) (iblk m c 4 t) (iblk m c 5 t) (iblk m c 6 t)
    (iblk m c 7 t) (iblk m c 8 t) (iblk m c 9 t) (iblk m c 10 t) y).trans ?_
  rw [blockParams_iblk m c t, iblk0 m c t y, iblk1 m c t y]
  rfl

/-- An index of the output array is in point `t`'s block iff each coordinate is in the block's range on its axis. -/
theorem mem_blk (t : Fin cfg0.N) (i : S1x204800.Idx) :
    i ∈ ((cfg0.win 11).blk t).view.set ↔ ∀ a : Fin 2, win0_11.index t a * S1x8192.size a ≤ (i a).val
      ∧ (i a).val < win0_11.index t a * S1x8192.size a + S1x8192.size a := by
  show i ∈ ((View.whole main_v29).slice (win0_11.rect t)).set ↔ _
  rw [View.set_slice_whole, Rect.mem_set_unit]
  exact Iff.rfl

/-- Every column is in the block of the point `column / 8192`. -/
theorem cover (i : S1x204800.Idx) :
    ∃ t : Fin cfg0.N, (cfg0.win 11).flush t = true ∧ i ∈ ((cfg0.win 11).blk t).view.set := by
  have hi0 : (i 0).val < 1 := (i 0).isLt
  have hi1 : (i 1).val < 204800 := (i 1).isLt
  have hN : cfg0.N = 25 := N_0
  refine ⟨⟨(i 1).val / 8192, by rw [hN]; omega⟩, flush0_11 _, ?_⟩
  obtain ⟨a00, a01, a10, a11, o0, o1, z2_0, z2_1, z3_0, z3_1, z4_0, z4_1, z5_0, z5_1, z6_0, z6_1, z7_0, z7_1, z7_2, z8_0, z8_1, z8_2, z9_0, z9_1, z10_0, z10_1⟩ := idx_facts ⟨(i 1).val / 8192, by rw [hN]; omega⟩
  rw [mem_blk]
  intro a
  match a with
  | ⟨0, _⟩ =>
    show win0_11.index _ (0 : Fin 2) * 1 ≤ (i 0).val ∧ (i 0).val < win0_11.index _ (0 : Fin 2) * 1 + 1
    rw [o0]; omega
  | ⟨1, _⟩ =>
    show win0_11.index _ (1 : Fin 2) * 8192 ≤ (i 1).val ∧ (i 1).val < win0_11.index _ (1 : Fin 2) * 8192 + 8192
    rw [o1]; show (i 1).val / 8192 * 8192 ≤ (i 1).val ∧ (i 1).val < (i 1).val / 8192 * 8192 + 8192; omega

/-- THE OUTPUT ARRAY after the run. -/
theorem final (c : Dev nD) : (dats m 0 c).arrAt 11 cfg0.N = rowResult m c :=
  (dats m 0 c).arrAt_eq_of_cover 11 (rowResult m c) (fun t _ => flushed_eq m c t) (cover)

end Cert.KernelIdeal.Blocks

end
-- ==== Proof.KernelValue.lean ====
/-
  The arrays the region finds, and the kernel's result.

  Before the region the host lays the data out for the body: the neighbours' sums `[200000, 1]` and the nodes' numbers
  `[200000, 1]` are flattened, padded with zeros to 204800 entries and viewed as rows `[1, 204800]`; `b_rel`, `b_out` become
  `[1, 1]`; `w_in` is transposed and `b_in` reshaped to columns `[200, 1]`; the hidden weights are transposed layer by
  layer, the hidden biases become columns; `w_out` is transposed to a row. So the weights the body reads are the argument
  arrays' entries, and column `n < 200000` of the two rows holds node `n`'s sum and number. After the region the first
  200000 columns of the output row are kept and viewed as `[200000, 1]`: entry `(n, 0)` is the node function of node `n`.
-/
import proofs.«142159_j85186381349438_2_alg».proof.Proof.Gen.KernelIdeal.Frame
import proofs.«142159_j85186381349438_2_alg».proof.Proof.KernelBlocks
import Idealize.ShloMosaic.Lib.KernelVsHost
import Idealize.ShloMosaic.Lib.StableHlo.Run
import Idealize.ShloMosaic.Lib.ValueLayout
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.HostSide

open Cert.KernelIdeal Cert.KernelIdeal.Gen Cert.KernelIdeal.Blocks Idealize.ShloMosaic.ValueIdx Cert.GraphMlp

variable (m : (ℓ : Loc nD τ sig) → Buf (Elt Ideal) ℓ) (ρ : Dev nD → PrngReg)

/-- Reads an array at the region's entry as the host operations' term of the launch contents. -/
macro "entry_term" : tactic => `(tactic| (
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  try rfl))

/-! ## The weights -/

theorem entry_v20 (c : Dev nD) : (V m c main_v20 : S1x1.Idx → EReal)
    = shapeCast S1x1 (m ((c : Thread nD τ).loc main_arg3) : S1.Idx → EReal) shapeCasts_S1_S1x1 := by entry_term

theorem entry_v21 (c : Dev nD) : (V m c main_v21 : S200x1.Idx → EReal)
    = transpose S200x1 [1, 0] (m ((c : Thread nD τ).loc main_arg5) : S1x200.Idx → EReal) transposes_S1x200_S200x1_1_0 := by entry_term

theorem entry_v22 (c : Dev nD) : (V m c main_v22 : S200x1.Idx → EReal)
    = shapeCast S200x1 (m ((c : Thread nD τ).loc main_arg6) : S200.Idx → EReal) shapeCasts_S200_S200x1 := by entry_term

theorem entry_v24 (c : Dev nD) : (V m c main_v24 : S6x200x200.Idx → EReal)
    = transpose S6x200x200 [0, 2, 1] (m ((c : Thread nD τ).loc main_arg7) : S6x200x200.Idx → EReal) transposes_S6x200x200_S6x200x200_0_2_1 := by
  entry_term

theorem entry_v25 (c : Dev nD) : (V m c main_v25 : S6x200x1.Idx → EReal)
    = shapeCast S6x200x1 (m ((c : Thread nD τ).loc main_arg8) : S6x200.Idx → EReal) shapeCasts_S6x200_S6x200x1 := by entry_term

theorem entry_v27 (c : Dev nD) : (V m c main_v27 : S1x200.Idx → EReal)
    = transpose S1x200 [1, 0] (m ((c : Thread nD τ).loc main_arg9) : S200x1.Idx → EReal) transposes_S200x1_S1x200_1_0 := by entry_term

theorem entry_v28 (c : Dev nD) : (V m c main_v28 : S1x1.Idx → EReal)
    = shapeCast S1x1 (m ((c : Thread nD τ).loc main_arg10) : S1.Idx → EReal) shapeCasts_S1_S1x1 := by entry_term

/-! ## The weights the region finds are the argument arrays' -/

theorem brel_entry (c : Dev nD) : V m c main_v20 (ix2 (0 : Fin 1) (0 : Fin 1)) = m ((c : Thread nD τ).loc main_arg3) (ix1 (0 : Fin 1)) := by
  rw [entry_v20]; exact shapeCast_a_1a_apply _ _ 0 0

theorem win_entry (c : Dev nD) (j : Fin 200) :
    V m c main_v21 (ix2 j (0 : Fin 1)) = m ((c : Thread nD τ).loc main_arg5) (ix2 (0 : Fin 1) j) := by
  rw [entry_v21]; exact transpose_ix2_apply _ _ j 0

theorem bin_entry (c : Dev nD) (j : Fin 200) : V m c main_v22 (ix2 j (0 : Fin 1)) = m ((c : Thread nD τ).loc main_arg6) (ix1 j) := by
  rw [entry_v22]
  exact shapeCast_apply _ _ (ix2 j (0 : Fin 1)) (ix1 j) (by
    rw [Shape.rowMajor_val_one, Shape.rowMajor_val_two]; show j.val = j.val * 1 + 0; omega)

theorem whid_entry (c : Dev nD) (l : Fin 6) (k j : Fin 200) :
    V m c main_v24 (ix3 l j k) = m ((c : Thread nD τ).loc main_arg7) (ix3 l k j) := by
  rw [entry_v24]; exact transpose_ix3_021_apply _ _ l j k

theorem bhid_entry (c : Dev nD) (l : Fin 6) (j : Fin 200) :
    V m c main_v25 (ix3 l j (0 : Fin 1)) = m ((c : Thread nD τ).loc main_arg8) (ix2 l j) := by
  rw [entry_v25]
  exact shapeCast_apply _ _ (ix3 l j (0 : Fin 1)) (ix2 l j) (by
    rw [Shape.rowMajor_val_two, Shape.rowMajor_val_three]; show l.val * 200 + j.val = (l.val * 200 + j.val) * 1 + 0; omega)

theorem wout_entry (c : Dev nD) (k : Fin 200) :
    V m c main_v27 (ix2 (0 : Fin 1) k) = m ((c : Thread nD τ).loc main_arg9) (ix2 k (0 : Fin 1)) := by
  rw [entry_v27]; exact transpose_ix2_apply _ _ 0 k

theorem bout_entry (c : Dev nD) : V m c main_v28 (ix2 (0 : Fin 1) (0 : Fin 1)) = m ((c : Thread nD τ).loc main_arg10) (ix1 (0 : Fin 1)) := by
  rw [entry_v28]; exact shapeCast_a_1a_apply _ _ 0 0

/-- The weights in the body's layout, as the region finds them, are the weights of the argument arrays. -/
theorem regionParams_eq (c : Dev nD) :
    regionParams m c = paramsOf (m ((c : Thread nD τ).loc main_arg2)) (m ((c : Thread nD τ).loc main_arg3))
      (m ((c : Thread nD τ).loc main_arg4)) (m ((c : Thread nD τ).loc main_arg5)) (m ((c : Thread nD τ).loc main_arg6))
      (m ((c : Thread nD τ).loc main_arg7)) (m ((c : Thread nD τ).loc main_arg8)) (m ((c : Thread nD τ).loc main_arg9))
      (m ((c : Thread nD τ).loc main_arg10)) := by
  unfold regionParams blockParams paramsOf
  rw [Params.mk.injEq]
  exact ⟨congrFun (V_main_arg2 m c) _, brel_entry m c, congrFun (V_main_arg4 m c) _, funext fun j => win_entry m c j,
    funext fun j => bin_entry m c j, funext fun l => funext fun k => funext fun j => whid_entry m c l k j,
    funext fun l => funext fun j => bhid_entry m c l j, funext fun k => wout_entry m c k, bout_entry m c⟩

/-! ## The two padded rows -/

/-- A `[200000, 1]` array flattened, padded at the end to 204800 entries and viewed as a row: column `n < 200000` holds the
    array's entry `(n, 0)`. -/
theorem padded_row (X : S200000x1.Idx → EReal) (v : S_.Idx → EReal) (n : Fin 200000) (hn : n.val < 204800) :
    shapeCast S1x204800 (pad S204800 ![0] ![4800] ![0] (shapeCast S200000 X shapeCasts_S200000x1_S200000) v
        pads_S200000_S204800_048000 h_S_) shapeCasts_S204800_S1x204800 (ix2 (0 : Fin 1) (⟨n.val, hn⟩ : Fin 204800))
      = X (ix2 n (0 : Fin 1)) := by
  rw [shapeCast_a_1a_apply]
  refine (pad_apply_of_inside _ _ _ _ _ _ _ (ix1 (⟨n.val, hn⟩ : Fin 204800)) (ix1 n) (fun a => ?_)).trans ?_
  · match a with
    | ⟨0, _⟩ => show n.val = 0 + n.val * (0 + 1); omega
  · exact shapeCast_apply X _ (ix1 n) (ix2 n (0 : Fin 1)) (by
      rw [Shape.rowMajor_val_two, Shape.rowMajor_val_one]; show n.val * 1 + 0 = n.val; omega)

/-- The neighbours' sums as the region's entry finds them, `[200000, 1]`. -/
abbrev aggregated (c : Dev nD) : S200000x1.Idx → EReal := V m c main_v13

set_option maxHeartbeats 2000000 in
theorem entry_v16 (c : Dev nD) : (V m c main_v16 : S1x204800.Idx → EReal)
    = shapeCast S1x204800 (pad S204800 ![0] ![4800] ![0] (shapeCast S200000 (aggregated m c) shapeCasts_S200000x1_S200000)
        (sitofp (F := Ideal) .f32 (constantI S_ 32 0#32)) pads_S200000_S204800_048000 h_S_) shapeCasts_S204800_S1x204800 := by
  entry_term

theorem entry_v19 (c : Dev nD) : (V m c main_v19 : S1x204800.Idx → EReal)
    = shapeCast S1x204800 (pad S204800 ![0] ![4800] ![0]
        (shapeCast S200000 (m ((c : Thread nD τ).loc main_arg0) : S200000x1.Idx → EReal) shapeCasts_S200000x1_S200000)
        (sitofp (F := Ideal) .f32 (constantI S_ 32 0#32)) pads_S200000_S204800_048000 h_S_) shapeCasts_S204800_S1x204800 := by
  entry_term

/-- Column `n < 200000` of the output row is node `n`'s result. -/
theorem rowResult_apply (c : Dev nD) (n : Fin 200000) (hn : n.val < 204800) :
    rowResult m c (ix2 (0 : Fin 1) (⟨n.val, hn⟩ : Fin 204800))
      = G (paramsOf (m ((c : Thread nD τ).loc main_arg2)) (m ((c : Thread nD τ).loc main_arg3))
          (m ((c : Thread nD τ).loc main_arg4)) (m ((c : Thread nD τ).loc main_arg5)) (m ((c : Thread nD τ).loc main_arg6))
          (m ((c : Thread nD τ).loc main_arg7)) (m ((c : Thread nD τ).loc main_arg8)) (m ((c : Thread nD τ).loc main_arg9))
          (m ((c : Thread nD τ).loc main_arg10))) (aggregated m c) (m ((c : Thread nD τ).loc main_arg0)) (ix2 n (0 : Fin 1)) := by
  unfold rowResult G
  rw [regionParams_eq, entry_v16, entry_v19, padded_row, padded_row]

/-! ## After the region -/

/-- The result `[200000, 1]`: the first 200000 columns of the output row, flattened and viewed as a column. -/
theorem tail_term (c : Dev nD) :
    (Pipeline.afterTail₀ cfgs (dats m) 0 (V0 m) [hostOps1] c main_v32 : S200000x1.Idx → EReal)
      = shapeCast S200000x1 (shapeCast S200000 (extractStridedSlice S1x200000 ![0, 0] (rowResult m c : S1x204800.Idx → EReal)
          slices_S1x204800_S1x200000_0_0) shapeCasts_S1x200000_S200000) shapeCasts_S200000_S200000x1 := by
  have hA : Pipeline.withArrays spec0 c (V0 m c) (fun w => (dats m 0 c).arrAt w cfg0.N) (Proc.devRef .tc main_v29) = rowResult m c :=
    (Pipeline.withArrays_arr spec0 launch0.win.arr_inj c _ _ 11).trans (final m c)
  unfold Pipeline.afterTail₀
  show StableHlo.after hostOps1 _ (Proc.devRef .tc main_v32) = _
  after_results
  rw [hA]
  rfl

end Cert.KernelIdeal.HostSide

end
-- ==== Proof.KernelRun.lean ====
/-
  The kernel's result and its run.

  After the region the host keeps the first 200000 columns of the output row and views them as a column: entry `(n, 0)` of
  the result is column `n` of the row, the node function of node `n`'s sum and number with the argument arrays' weights.
-/
import proofs.«142159_j85186381349438_2_alg».proof.Proof.KernelValue

set_option maxRecDepth 16384

noncomputable section

open Idealize.ShloMosaic Idealize.ShloMosaic.TcCoe Idealize.SL.Sem
open Idealize.ShloMosaic.Pipeline (Dat)

namespace Cert.KernelIdeal.HostSide

open Cert.KernelIdeal Cert.KernelIdeal.Gen Cert.KernelIdeal.Blocks Idealize.ShloMosaic.ValueIdx Cert.GraphMlp

variable (m : (ℓ : Loc nD τ sig) → Buf (Elt Ideal) ℓ) (ρ : Dev nD → PrngReg)

/-- THE KERNEL'S RESULT `[200000, 1]`: entry by entry the node function, of the neighbours' sums as the region's entry finds
    them and of the argument arrays. -/
theorem result_eq (c : Dev nD) :
    (Pipeline.afterTail₀ cfgs (dats m) 0 (V0 m) [hostOps1] c main_v32 : S200000x1.Idx → EReal)
      = G (paramsOf (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (aggregated m c) (m ((c : Thread nD τ).loc main_arg0)) := by
  funext i
  obtain ⟨n, z, rfl⟩ : ∃ (n : Fin 200000) (z : Fin 1), i = ix2 n z := ⟨i 0, i 1, eq_ix2 i⟩
  obtain rfl : z = 0 := Subsingleton.elim _ _
  have hn : n.val < 204800 := by have := n.isLt; omega
  rw [tail_term]
  refine (shapeCast_apply _ _ (ix2 n (0 : Fin 1)) (ix1 n) (by
    rw [Shape.rowMajor_val_one, Shape.rowMajor_val_two]; show n.val = n.val * 1 + 0; omega)).trans ?_
  rw [shapeCast_1a_a_apply]
  refine (extractStridedSlice_apply _ _ _ (ix2 (0 : Fin 1) n) (ix2 (0 : Fin 1) (⟨n.val, hn⟩ : Fin 204800)) (fun a => ?_)).trans
    (rowResult_apply m c n hn)
  match a with
  | ⟨0, _⟩ => rfl
  | ⟨1, _⟩ => show n.val = 0 + n.val; omega

/-- THE KERNEL'S RUN, READ: every weakly fair execution terminates with the result array at the node function of the
    neighbours' sums and the argument arrays, and the argument arrays unchanged. -/
theorem run : θ_run defs (onTc (τ := τ) (main (F := Ideal))) ⟨m, fun _ => 0, ρ⟩ (fun r => ∀ c : Dev nD,
      r.2.mem ((c.tc : Thread nD τ).loc main_v32)
        = G (paramsOf (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (aggregated m c) (m ((c : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c =>
    ⟨((h c).2 main_v32 (Pipeline.mem_restRefs_of main_v32 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).1 4).trans (((dats m 0 c).arrAt_in 4 rfl _).trans ((A_eq m c 4).trans (V_main_arg4 m c))),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c)⟩)
    (run_main m ρ)

end Cert.KernelIdeal.HostSide

end
-- ==== Proof.RefValue.lean ====
/-
  The reference program, stage by stage, is the node function of the specification.

  The generated reading of the reference gives every operation at an index from its operands at an index. Here those
  readings are chained, row by row: the two contractions of extent one and the bias give the graph convolution, the
  contraction of extent one into 200 units gives the first layer, each of the six 200 × 200 contractions with its
  bias and rectifier is one `dense` layer on a row, and the last contraction with the expansion of the logistic is
  `head`. The aggregated array (the scatter-add of the gathered rows) is never opened: it enters as one array, the
  same on both sides. Nothing here uses a law of arithmetic: each step is the definition of an operation, the
  evaluation of an index function, or a sum over a one-element range.
-/
import proofs.«142159_j85186381349438_2_alg».proof.Proof.Gen.ReferenceIdeal.Read
import proofs.«142159_j85186381349438_2_alg».proof.Proof.Spec

noncomputable section

namespace Cert.ReferenceIdeal.RefValue

open Cert.ReferenceIdeal Cert.ReferenceIdeal.Read Idealize.ShloMosaic Idealize.ShloMosaic.ValueIdx Cert.GraphMlp

/-- The word `0x3F800000` is the number one: sign 0, biased exponent 127, fraction 0. -/
theorem one_word : Ideal.ofBits .f32 0x3F800000#32 = 1 := by
  simp [Ideal.ofBits, Ideal.ieee, -EReal.coe_mul]; norm_num

/-- Row `n` of a `[200000, 200]` array, as a function of the hidden unit. -/
def row (H : S200000x200.Idx → EReal) (n : Fin 200000) : Fin 200 → EReal := fun k => H (ix2 n k)

section Stages

variable (x0 : (⟨S200000x1, .f32⟩ : BufTy).Contents (Elt Ideal)) (x1 : (⟨S2x6400000, .i32⟩ : BufTy).Contents (Elt Ideal))
  (x2 : (⟨S1x1, .f32⟩ : BufTy).Contents (Elt Ideal)) (x3 : (⟨S1, .f32⟩ : BufTy).Contents (Elt Ideal))
  (x4 : (⟨S1x1, .f32⟩ : BufTy).Contents (Elt Ideal)) (x5 : (⟨S1x200, .f32⟩ : BufTy).Contents (Elt Ideal))
  (x6 : (⟨S200, .f32⟩ : BufTy).Contents (Elt Ideal)) (x7 : (⟨S6x200x200, .f32⟩ : BufTy).Contents (Elt Ideal))
  (x8 : (⟨S6x200, .f32⟩ : BufTy).Contents (Elt Ideal)) (x9 : (⟨S200x1, .f32⟩ : BufTy).Contents (Elt Ideal))
  (x10 : (⟨S1, .f32⟩ : BufTy).Contents (Elt Ideal))

/-- The graph convolution at node `n`: each of the two contractions has extent one, so its sum is its single term,
    and the bias `b_rel [1]` is broadcast to `[1, 1]` and then to `[200000, 1]`. -/
theorem conv_at (n : Fin 200000) :
    val_main_v19 (F := Ideal) x0 x1 x2 x3 x4 (ix2 n (0 : Fin 1))
      = conv (x2 (ix2 (0 : Fin 1) (0 : Fin 1))) (x3 (ix1 (0 : Fin 1))) (x4 (ix2 (0 : Fin 1) (0 : Fin 1)))
          (val_main_v13 (F := Ideal) x0 x1 (ix2 n (0 : Fin 1))) (x0 (ix2 n (0 : Fin 1))) := by
  have l14 : lidx_main_v14 (ix2 n (0 : Fin 1)) (0 : Fin 1) = ix2 n (0 : Fin 1) :=
    funext fun a => Fin.ext (by match a with | ⟨0, _⟩ => rfl | ⟨1, _⟩ => rfl)
  have r14 : ridx_main_v14 (ix2 n (0 : Fin 1)) (0 : Fin 1) = ix2 (0 : Fin 1) (0 : Fin 1) :=
    funext fun a => Fin.ext (by match a with | ⟨0, _⟩ => rfl | ⟨1, _⟩ => rfl)
  have l18 : lidx_main_v18 (ix2 n (0 : Fin 1)) (0 : Fin 1) = ix2 n (0 : Fin 1) :=
    funext fun a => Fin.ext (by match a with | ⟨0, _⟩ => rfl | ⟨1, _⟩ => rfl)
  have r18 : ridx_main_v18 (ix2 n (0 : Fin 1)) (0 : Fin 1) = ix2 (0 : Fin 1) (0 : Fin 1) :=
    funext fun a => Fin.ext (by match a with | ⟨0, _⟩ => rfl | ⟨1, _⟩ => rfl)
  have b16 : idx_main_v15 (idx_main_v16 (ix2 n (0 : Fin 1))) = ix1 (0 : Fin 1) :=
    funext fun a => Fin.ext (by match a with | ⟨0, _⟩ => rfl)
  rw [val_main_v19_apply, val_main_v17_apply, val_main_v14_apply, val_main_v18_apply, val_main_v16_apply,
    val_main_v15_apply, Fin.sum_univ_one, Fin.sum_univ_one, l14, r14, l18, r18, b16]
  rfl

/-- The first layer: the contraction has extent one, so unit `j` of row `n` is the convolution's value at `n` times
    `w_in (0, j)`, plus `b_in j` (broadcast to `[1, 200]` and then along the rows), rectified. -/
theorem first_layer (n : Fin 200000) :
    row (val_main_v24 (F := Ideal) x0 x1 x2 x3 x4 x5 x6) n
      = spread (fun j => x5 (ix2 (0 : Fin 1) j)) (fun j => x6 (ix1 j))
          (val_main_v19 (F := Ideal) x0 x1 x2 x3 x4 (ix2 n (0 : Fin 1))) := by
  funext j
  have l20 : lidx_main_v20 (ix2 n j) (0 : Fin 1) = ix2 n (0 : Fin 1) :=
    funext fun a => Fin.ext (by match a with | ⟨0, _⟩ => rfl | ⟨1, _⟩ => rfl)
  have r20 : ridx_main_v20 (ix2 n j) (0 : Fin 1) = ix2 (0 : Fin 1) j :=
    funext fun a => Fin.ext (by match a with | ⟨0, _⟩ => rfl | ⟨1, _⟩ => rfl)
  have b22 : idx_main_v21 (idx_main_v22 (ix2 n j)) = ix1 j :=
    funext fun a => Fin.ext (by match a with | ⟨0, _⟩ => rfl)
  have hz : val_main_call0_v0 (F := Ideal) (ix2 n j) = 0 := by
    rw [val_main_call0_v0_apply, val_main_call0_cst_apply]; exact Ideal.ofBits_zero_f32
  show val_main_v24 (F := Ideal) x0 x1 x2 x3 x4 x5 x6 (ix2 n j) = _
  rw [val_main_v24_apply, val_main_v23_apply, val_main_v20_apply, val_main_v22_apply, val_main_v21_apply,
    Fin.sum_univ_one, l20, r20, b22, hz]
  rfl

/-- The first hidden layer: row `n` of its result is `dense` of layer 0's weights `w_hid[0]`, `b_hid[0]` applied to
    row `n` of its operand. The contraction runs over the operand's second axis and the weights' first; the weights are
    a slice of `w_hid` with the unit axis dropped (entry `(k, j)` sits at flat position `k * 200 + j`), the bias a slice
    of `b_hid` broadcast along the rows. -/
theorem layer0 (n : Fin 200000) :
    row (val_main_v33 (F := Ideal) x0 x1 x2 x3 x4 x5 x6 x7 x8) n
      = dense (fun k j => x7 (ix3 (0 : Fin 6) k j)) (fun j => x8 (ix2 (0 : Fin 6) j))
          (row (val_main_v24 (F := Ideal) x0 x1 x2 x3 x4 x5 x6) n) := by
  funext j
  have hdot : val_main_v27 (F := Ideal) x0 x1 x2 x3 x4 x5 x6 x7 (ix2 n j)
      = ∑ k : Fin 200, val_main_v24 (F := Ideal) x0 x1 x2 x3 x4 x5 x6 (ix2 n k) * x7 (ix3 (0 : Fin 6) k j) := by
    rw [val_main_v27_apply]
    refine Finset.sum_congr rfl fun k _ => ?_
    rw [val_main_v26_apply, val_main_v25_apply]
    have e1 : lidx_main_v27 (ix2 n j) k = ix2 n k :=
      funext fun a => Fin.ext (by match a with | ⟨0, _⟩ => rfl | ⟨1, _⟩ => rfl)
    have e2 : idx_main_v25 (idx_main_v26 (ridx_main_v27 (ix2 n j) k)) = ix3 (0 : Fin 6) k j :=
      funext fun a => Fin.ext (by
        have hk := k.isLt
        have hj := j.isLt
        match a with
        | ⟨0, _⟩ => rfl
        | ⟨1, _⟩ => show (k.val * 200 + j.val) / 200 % 200 = k.val; omega
        | ⟨2, _⟩ => show (k.val * 200 + j.val) % 200 = j.val; omega)
    rw [e1, e2]
  have hb : val_main_v31 (F := Ideal) x8 (ix2 n j) = x8 (ix2 (0 : Fin 6) j) := by
    rw [val_main_v31_apply, val_main_v30_apply, val_main_v29_apply, val_main_v28_apply]
    have e : idx_main_v28 (idx_main_v29 (idx_main_v30 (idx_main_v31 (ix2 n j)))) = ix2 (0 : Fin 6) j :=
      funext fun a => Fin.ext (by
        match a with
        | ⟨0, _⟩ => rfl
        | ⟨1, _⟩ => show j.val % 200 = j.val; exact Nat.mod_eq_of_lt j.isLt)
    rw [e]
  have hz : val_main_call1_v0 (F := Ideal) (ix2 n j) = 0 := by
    rw [val_main_call1_v0_apply, val_main_call1_cst_apply]; exact Ideal.ofBits_zero_f32
  show val_main_v33 (F := Ideal) x0 x1 x2 x3 x4 x5 x6 x7 x8 (ix2 n j) = _
  rw [val_main_v33_apply, val_main_v32_apply, hdot, hb, hz]
  rfl

/-- The second hidden layer: row `n` of its result is `dense` of layer 1's weights `w_hid[1]`, `b_hid[1]` applied to
    row `n` of its operand. The contraction runs over the operand's second axis and the weights' first; the weights are
    a slice of `w_hid` with the unit axis dropped (entry `(k, j)` sits at flat position `k * 200 + j`), the bias a slice
    of `b_hid` broadcast along the rows. -/
theorem layer1 (n : Fin 200000) :
    row (val_main_v42 (F := Ideal) x0 x1 x2 x3 x4 x5 x6 x7 x8) n
      = dense (fun k j => x7 (ix3 (1 : Fin 6) k j)) (fun j => x8 (ix2 (1 : Fin 6) j))
          (row (val_main_v33 (F := Ideal) x0 x1 x2 x3 x4 x5 x6 x7 x8) n) := by
  funext j
  have hdot : val_main_v36 (F := Ideal) x0 x1 x2 x3 x4 x5 x6 x7 x8 (ix2 n j)
      = ∑ k : Fin 200, val_main_v33 (F := Ideal) x0 x1 x2 x3 x4 x5 x6 x7 x8 (ix2 n k) * x7 (ix3 (1 : Fin 6) k j) := by
    rw [val_main_v36_apply]
    refine Finset.sum_congr rfl fun k _ => ?_
    rw [val_main_v35_apply, val_main_v34_apply]
    have e1 : lidx_main_v36 (ix2 n j) k = ix2 n k :=
      funext fun a => Fin.ext (by match a with | ⟨0, _⟩ => rfl | ⟨1, _⟩ => rfl)
    have e2 : idx_main_v34 (idx_main_v35 (ridx_main_v36 (ix2 n j) k)) = ix3 (1 : Fin 6) k j :=
      funext fun a => Fin.ext (by
        have hk := k.isLt
        have hj := j.isLt
        match a with
        | ⟨0, _⟩ => rfl
        | ⟨1, _⟩ => show (k.val * 200 + j.val) / 200 % 200 = k.val; omega
        | ⟨2, _⟩ => show (k.val * 200 + j.val) % 200 = j.val; omega)
    rw [e1, e2]
  have hb : val_main_v40 (F := Ideal) x8 (ix2 n j) = x8 (ix2 (1 : Fin 6) j) := by
    rw [val_main_v40_apply, val_main_v39_apply, val_main_v38_apply, val_main_v37_apply]
    have e : idx_main_v37 (idx_main_v38 (idx_main_v39 (idx_main_v40 (ix2 n j)))) = ix2 (1 : Fin 6) j :=
      funext fun a => Fin.ext (by
        match a with
        | ⟨0, _⟩ => rfl
        | ⟨1, _⟩ => show j.val % 200 = j.val; exact Nat.mod_eq_of_lt j.isLt)
    rw [e]
  have hz : val_main_call2_v0 (F := Ideal) (ix2 n j) = 0 := by
    rw [val_main_call2_v0_apply, val_main_call2_cst_apply]; exact Ideal.ofBits_zero_f32
  show val_main_v42 (F := Ideal) x0 x1 x2 x3 x4 x5 x6 x7 x8 (ix2 n j) = _
  rw [val_main_v42_apply, val_main_v41_apply, hdot, hb, hz]
  rfl

/-- The third hidden layer: row `n` of its result is `dense` of layer 2's weights `w_hid[2]`, `b_hid[2]` applied to
    row `n` of its operand. The contraction runs over the operand's second axis and the weights' first; the weights are
    a slice of `w_hid` with the unit axis dropped (entry `(k, j)` sits at flat position `k * 200 + j`), the bias a slice
    of `b_hid` broadcast along the rows. -/
theorem layer2 (n : Fin 200000) :
    row (val_main_v51 (F := Ideal) x0 x1 x2 x3 x4 x5 x6 x7 x8) n
      = dense (fun k j => x7 (ix3 (2 : Fin 6) k j)) (fun j => x8 (ix2 (2 : Fin 6) j))
          (row (val_main_v42 (F := Ideal) x0 x1 x2 x3 x4 x5 x6 x7 x8) n) := by
  funext j
  have hdot : val_main_v45 (F := Ideal) x0 x1 x2 x3 x4 x5 x6 x7 x8 (ix2 n j)
      = ∑ k : Fin 200, val_main_v42 (F := Ideal) x0 x1 x2 x3 x4 x5 x6 x7 x8 (ix2 n k) * x7 (ix3 (2 : Fin 6) k j) := by
    rw [val_main_v45_apply]
    refine Finset.sum_congr rfl fun k _ => ?_
    rw [val_main_v44_apply, val_main_v43_apply]
    have e1 : lidx_main_v45 (ix2 n j) k = ix2 n k :=
      funext fun a => Fin.ext (by match a with | ⟨0, _⟩ => rfl | ⟨1, _⟩ => rfl)
    have e2 : idx_main_v43 (idx_main_v44 (ridx_main_v45 (ix2 n j) k)) = ix3 (2 : Fin 6) k j :=
      funext fun a => Fin.ext (by
        have hk := k.isLt
        have hj := j.isLt
        match a with
        | ⟨0, _⟩ => rfl
        | ⟨1, _⟩ => show (k.val * 200 + j.val) / 200 % 200 = k.val; omega
        | ⟨2, _⟩ => show (k.val * 200 + j.val) % 200 = j.val; omega)
    rw [e1, e2]
  have hb : val_main_v49 (F := Ideal) x8 (ix2 n j) = x8 (ix2 (2 : Fin 6) j) := by
    rw [val_main_v49_apply, val_main_v48_apply, val_main_v47_apply, val_main_v46_apply]
    have e : idx_main_v46 (idx_main_v47 (idx_main_v48 (idx_main_v49 (ix2 n j)))) = ix2 (2 : Fin 6) j :=
      funext fun a => Fin.ext (by
        match a with
        | ⟨0, _⟩ => rfl
        | ⟨1, _⟩ => show j.val % 200 = j.val; exact Nat.mod_eq_of_lt j.isLt)
    rw [e]
  have hz : val_main_call3_v0 (F := Ideal) (ix2 n j) = 0 := by
    rw [val_main_call3_v0_apply, val_main_call3_cst_apply]; exact Ideal.ofBits_zero_f32
  show val_main_v51 (F := Ideal) x0 x1 x2 x3 x4 x5 x6 x7 x8 (ix2 n j) = _
  rw [val_main_v51_apply, val_main_v50_apply, hdot, hb, hz]
  rfl

/-- The fourth hidden layer: row `n` of its result is `dense` of layer 3's weights `w_hid[3]`, `b_hid[3]` applied to
    row `n` of its operand. The contraction runs over the operand's second axis and the weights' first; the weights are
    a slice of `w_hid` with the unit axis dropped (entry `(k, j)` sits at flat position `k * 200 + j`), the bias a slice
    of `b_hid` broadcast along the rows. -/
theorem layer3 (n : Fin 200000) :
    row (val_main_v60 (F := Ideal) x0 x1 x2 x3 x4 x5 x6 x7 x8) n
      = dense (fun k j => x7 (ix3 (3 : Fin 6) k j)) (fun j => x8 (ix2 (3 : Fin 6) j))
          (row (val_main_v51 (F := Ideal) x0 x1 x2 x3 x4 x5 x6 x7 x8) n) := by
  funext j
  have hdot : val_main_v54 (F := Ideal) x0 x1 x2 x3 x4 x5 x6 x7 x8 (ix2 n j)
      = ∑ k : Fin 200, val_main_v51 (F := Ideal) x0 x1 x2 x3 x4 x5 x6 x7 x8 (ix2 n k) * x7 (ix3 (3 : Fin 6) k j) := by
    rw [val_main_v54_apply]
    refine Finset.sum_congr rfl fun k _ => ?_
    rw [val_main_v53_apply, val_main_v52_apply]
    have e1 : lidx_main_v54 (ix2 n j) k = ix2 n k :=
      funext fun a => Fin.ext (by match a with | ⟨0, _⟩ => rfl | ⟨1, _⟩ => rfl)
    have e2 : idx_main_v52 (idx_main_v53 (ridx_main_v54 (ix2 n j) k)) = ix3 (3 : Fin 6) k j :=
      funext fun a => Fin.ext (by
        have hk := k.isLt
        have hj := j.isLt
        match a with
        | ⟨0, _⟩ => rfl
        | ⟨1, _⟩ => show (k.val * 200 + j.val) / 200 % 200 = k.val; omega
        | ⟨2, _⟩ => show (k.val * 200 + j.val) % 200 = j.val; omega)
    rw [e1, e2]
  have hb : val_main_v58 (F := Ideal) x8 (ix2 n j) = x8 (ix2 (3 : Fin 6) j) := by
    rw [val_main_v58_apply, val_main_v57_apply, val_main_v56_apply, val_main_v55_apply]
    have e : idx_main_v55 (idx_main_v56 (idx_main_v57 (idx_main_v58 (ix2 n j)))) = ix2 (3 : Fin 6) j :=
      funext fun a => Fin.ext (by
        match a with
        | ⟨0, _⟩ => rfl
        | ⟨1, _⟩ => show j.val % 200 = j.val; exact Nat.mod_eq_of_lt j.isLt)
    rw [e]
  have hz : val_main_call4_v0 (F := Ideal) (ix2 n j) = 0 := by
    rw [val_main_call4_v0_apply, val_main_call4_cst_apply]; exact Ideal.ofBits_zero_f32
  show val_main_v60 (F := Ideal) x0 x1 x2 x3 x4 x5 x6 x7 x8 (ix2 n j) = _
  rw [val_main_v60_apply, val_main_v59_apply, hdot, hb, hz]
  rfl

/-- The fifth hidden layer: row `n` of its result is `dense` of layer 4's weights `w_hid[4]`, `b_hid[4]` applied to
    row `n` of its operand. The contraction runs over the operand's second axis and the weights' first; the weights are
    a slice of `w_hid` with the unit axis dropped (entry `(k, j)` sits at flat position `k * 200 + j`), the bias a slice
    of `b_hid` broadcast along the rows. -/
theorem layer4 (n : Fin 200000) :
    row (val_main_v69 (F := Ideal) x0 x1 x2 x3 x4 x5 x6 x7 x8) n
      = dense (fun k j => x7 (ix3 (4 : Fin 6) k j)) (fun j => x8 (ix2 (4 : Fin 6) j))
          (row (val_main_v60 (F := Ideal) x0 x1 x2 x3 x4 x5 x6 x7 x8) n) := by
  funext j
  have hdot : val_main_v63 (F := Ideal) x0 x1 x2 x3 x4 x5 x6 x7 x8 (ix2 n j)
      = ∑ k : Fin 200, val_main_v60 (F := Ideal) x0 x1 x2 x3 x4 x5 x6 x7 x8 (ix2 n k) * x7 (ix3 (4 : Fin 6) k j) := by
    rw [val_main_v63_apply]
    refine Finset.sum_congr rfl fun k _ => ?_
    rw [val_main_v62_apply, val_main_v61_apply]
    have e1 : lidx_main_v63 (ix2 n j) k = ix2 n k :=
      funext fun a => Fin.ext (by match a with | ⟨0, _⟩ => rfl | ⟨1, _⟩ => rfl)
    have e2 : idx_main_v61 (idx_main_v62 (ridx_main_v63 (ix2 n j) k)) = ix3 (4 : Fin 6) k j :=
      funext fun a => Fin.ext (by
        have hk := k.isLt
        have hj := j.isLt
        match a with
        | ⟨0, _⟩ => rfl
        | ⟨1, _⟩ => show (k.val * 200 + j.val) / 200 % 200 = k.val; omega
        | ⟨2, _⟩ => show (k.val * 200 + j.val) % 200 = j.val; omega)
    rw [e1, e2]
  have hb : val_main_v67 (F := Ideal) x8 (ix2 n j) = x8 (ix2 (4 : Fin 6) j) := by
    rw [val_main_v67_apply, val_main_v66_apply, val_main_v65_apply, val_main_v64_apply]
    have e : idx_main_v64 (idx_main_v65 (idx_main_v66 (idx_main_v67 (ix2 n j)))) = ix2 (4 : Fin 6) j :=
      funext fun a => Fin.ext (by
        match a with
        | ⟨0, _⟩ => rfl
        | ⟨1, _⟩ => show j.val % 200 = j.val; exact Nat.mod_eq_of_lt j.isLt)
    rw [e]
  have hz : val_main_call5_v0 (F := Ideal) (ix2 n j) = 0 := by
    rw [val_main_call5_v0_apply, val_main_call5_cst_apply]; exact Ideal.ofBits_zero_f32
  show val_main_v69 (F := Ideal) x0 x1 x2 x3 x4 x5 x6 x7 x8 (ix2 n j) = _
  rw [val_main_v69_apply, val_main_v68_apply, hdot, hb, hz]
  rfl

/-- The sixth hidden layer: row `n` of its result is `dense` of layer 5's weights `w_hid[5]`, `b_hid[5]` applied to
    row `n` of its operand. The contraction runs over the operand's second axis and the weights' first; the weights are
    a slice of `w_hid` with the unit axis dropped (entry `(k, j)` sits at flat position `k * 200 + j`), the bias a slice
    of `b_hid` broadcast along the rows. -/
theorem layer5 (n : Fin 200000) :
    row (val_main_v78 (F := Ideal) x0 x1 x2 x3 x4 x5 x6 x7 x8) n
      = dense (fun k j => x7 (ix3 (5 : Fin 6) k j)) (fun j => x8 (ix2 (5 : Fin 6) j))
          (row (val_main_v69 (F := Ideal) x0 x1 x2 x3 x4 x5 x6 x7 x8) n) := by
  funext j
  have hdot : val_main_v72 (F := Ideal) x0 x1 x2 x3 x4 x5 x6 x7 x8 (ix2 n j)
      = ∑ k : Fin 200, val_main_v69 (F := Ideal) x0 x1 x2 x3 x4 x5 x6 x7 x8 (ix2 n k) * x7 (ix3 (5 : Fin 6) k j) := by
    rw [val_main_v72_apply]
    refine Finset.sum_congr rfl fun k _ => ?_
    rw [val_main_v71_apply, val_main_v70_apply]
    have e1 : lidx_main_v72 (ix2 n j) k = ix2 n k :=
      funext fun a => Fin.ext (by match a with | ⟨0, _⟩ => rfl | ⟨1, _⟩ => rfl)
    have e2 : idx_main_v70 (idx_main_v71 (ridx_main_v72 (ix2 n j) k)) = ix3 (5 : Fin 6) k j :=
      funext fun a => Fin.ext (by
        have hk := k.isLt
        have hj := j.isLt
        match a with
        | ⟨0, _⟩ => rfl
        | ⟨1, _⟩ => show (k.val * 200 + j.val) / 200 % 200 = k.val; omega
        | ⟨2, _⟩ => show (k.val * 200 + j.val) % 200 = j.val; omega)
    rw [e1, e2]
  have hb : val_main_v76 (F := Ideal) x8 (ix2 n j) = x8 (ix2 (5 : Fin 6) j) := by
    rw [val_main_v76_apply, val_main_v75_apply, val_main_v74_apply, val_main_v73_apply]
    have e : idx_main_v73 (idx_main_v74 (idx_main_v75 (idx_main_v76 (ix2 n j)))) = ix2 (5 : Fin 6) j :=
      funext fun a => Fin.ext (by
        match a with
        | ⟨0, _⟩ => rfl
        | ⟨1, _⟩ => show j.val % 200 = j.val; exact Nat.mod_eq_of_lt j.isLt)
    rw [e]
  have hz : val_main_call6_v0 (F := Ideal) (ix2 n j) = 0 := by
    rw [val_main_call6_v0_apply, val_main_call6_cst_apply]; exact Ideal.ofBits_zero_f32
  show val_main_v78 (F := Ideal) x0 x1 x2 x3 x4 x5 x6 x7 x8 (ix2 n j) = _
  rw [val_main_v78_apply, val_main_v77_apply, hdot, hb, hz]
  rfl

/-- The last layer and the logistic at node `n`: the contraction of row `n` with `w_out`, plus `b_out` (broadcast to
    `[1, 1]` and then along the rows), and then `1 / (1 + exp (-out))` with both ones given by the word of the number one —
    which is the definition of the logistic. -/
theorem last_layer (n : Fin 200000) :
    val_main_v88 (F := Ideal) x0 x1 x2 x3 x4 x5 x6 x7 x8 x9 x10 (ix2 n (0 : Fin 1))
      = head (fun k => x9 (ix2 k (0 : Fin 1))) (x10 (ix1 (0 : Fin 1)))
          (row (val_main_v78 (F := Ideal) x0 x1 x2 x3 x4 x5 x6 x7 x8) n) := by
  have hdot : val_main_v79 (F := Ideal) x0 x1 x2 x3 x4 x5 x6 x7 x8 x9 (ix2 n (0 : Fin 1))
      = ∑ k : Fin 200, val_main_v78 (F := Ideal) x0 x1 x2 x3 x4 x5 x6 x7 x8 (ix2 n k) * x9 (ix2 k (0 : Fin 1)) := by
    rw [val_main_v79_apply]
    refine Finset.sum_congr rfl fun k _ => ?_
    have e1 : lidx_main_v79 (ix2 n (0 : Fin 1)) k = ix2 n k :=
      funext fun a => Fin.ext (by match a with | ⟨0, _⟩ => rfl | ⟨1, _⟩ => rfl)
    have e2 : ridx_main_v79 (ix2 n (0 : Fin 1)) k = ix2 k (0 : Fin 1) :=
      funext fun a => Fin.ext (by match a with | ⟨0, _⟩ => rfl | ⟨1, _⟩ => rfl)
    rw [e1, e2]
  have hb : val_main_v81 (F := Ideal) x10 (ix2 n (0 : Fin 1)) = x10 (ix1 (0 : Fin 1)) := by
    rw [val_main_v81_apply, val_main_v80_apply]
    have e : idx_main_v80 (idx_main_v81 (ix2 n (0 : Fin 1))) = ix1 (0 : Fin 1) :=
      funext fun a => Fin.ext (by match a with | ⟨0, _⟩ => rfl)
    rw [e]
  have h85 : val_main_v85 (F := Ideal) (ix2 n (0 : Fin 1)) = 1 := by
    rw [val_main_v85_apply, val_main_cst_1_apply]; exact one_word
  have h87 : val_main_v87 (F := Ideal) (ix2 n (0 : Fin 1)) = 1 := by
    rw [val_main_v87_apply, val_main_cst_2_apply]; exact one_word
  rw [val_main_v88_apply, val_main_v86_apply, val_main_v84_apply, val_main_v83_apply, val_main_v82_apply,
    hdot, hb, h85, h87]
  simp only [Ideal.hostDivf_def, Ideal.addf_def, Ideal.hostUnary_exp_def, Ideal.hostNegf_def, Ideal.negf_def]
  rfl

end Stages

/-- The reference's result is the node function of the specification at every node, of the aggregated array and the
    nodes' numbers: an index of `[200000, 1]` is a node and the one column; the last layer, the six dense layers, the
    first layer and the convolution are read in turn. -/
theorem ref_eq
    (x0 : (⟨S200000x1, .f32⟩ : BufTy).Contents (Elt Ideal)) (x1 : (⟨S2x6400000, .i32⟩ : BufTy).Contents (Elt Ideal))
    (x2 : (⟨S1x1, .f32⟩ : BufTy).Contents (Elt Ideal)) (x3 : (⟨S1, .f32⟩ : BufTy).Contents (Elt Ideal))
    (x4 : (⟨S1x1, .f32⟩ : BufTy).Contents (Elt Ideal)) (x5 : (⟨S1x200, .f32⟩ : BufTy).Contents (Elt Ideal))
    (x6 : (⟨S200, .f32⟩ : BufTy).Contents (Elt Ideal)) (x7 : (⟨S6x200x200, .f32⟩ : BufTy).Contents (Elt Ideal))
    (x8 : (⟨S6x200, .f32⟩ : BufTy).Contents (Elt Ideal)) (x9 : (⟨S200x1, .f32⟩ : BufTy).Contents (Elt Ideal))
    (x10 : (⟨S1, .f32⟩ : BufTy).Contents (Elt Ideal)) :
    Cert.ReferenceIdeal.Read.val_main_v88 (F := Ideal) x0 x1 x2 x3 x4 x5 x6 x7 x8 x9 x10
      = Cert.GraphMlp.G (Cert.GraphMlp.paramsOf x2 x3 x4 x5 x6 x7 x8 x9 x10)
          (Cert.ReferenceIdeal.Read.val_main_v13 (F := Ideal) x0 x1) x0 := by
  funext i
  obtain ⟨n, z, rfl⟩ : ∃ (n : Fin 200000) (z : Fin 1), i = ix2 n z := ⟨i 0, i 1, eq_ix2 i⟩
  obtain rfl : z = 0 := Subsingleton.elim _ _
  rw [last_layer, layer5, layer4, layer3, layer2, layer1, layer0, first_layer, conv_at]
  rfl

end Cert.ReferenceIdeal.RefValue

end
-- ==== Proof.lean ====
/-
  A graph convolution followed by an eight-layer perceptron, node by node, computed two ways.

  Both programs first sum, for every node, the numbers of its in-neighbours (a gather of the nodes' numbers along the edges'
  sources and a scatter-add along their targets: the same operations, in the same order, in both programs). The reference
  then applies the convolution and the perceptron to the `[200000, 1]` arrays row-major. The kernel pads the two arrays to
  204800 entries, lays the nodes along the columns of `[1, 204800]` rows, and runs the perceptron block by block on
  transposed weights, 8192 nodes at a time, keeping the first 200000 results.

  Over the extended reals the two agree entry by entry: a change of float format is the identity, a contraction of extent one
  is its one product, each product of the transposed layout is the row-major product with its two factors swapped, the
  logistic is `1 / (1 + exp (-x))` by definition, and the padded nodes are dropped. No entry needs to be finite.
-/
import proofs.«142159_j85186381349438_2_alg».proof.Defs
import proofs.«142159_j85186381349438_2_alg».proof.Proof.Gen.Kernel
import proofs.«142159_j85186381349438_2_alg».proof.Proof.Gen.Kernel.Skeleton
import proofs.«142159_j85186381349438_2_alg».proof.Proof.Gen.Kernel.Launch
import proofs.«142159_j85186381349438_2_alg».proof.Proof.Gen.Kernel.Points
import proofs.«142159_j85186381349438_2_alg».proof.Proof.Gen.Kernel.Frame
import proofs.«142159_j85186381349438_2_alg».proof.Proof.Gen.KernelIdeal
import proofs.«142159_j85186381349438_2_alg».proof.Proof.Gen.KernelIdeal.Skeleton
import proofs.«142159_j85186381349438_2_alg».proof.Proof.Gen.KernelIdeal.Launch
import proofs.«142159_j85186381349438_2_alg».proof.Proof.Gen.KernelIdeal.Points
import proofs.«142159_j85186381349438_2_alg».proof.Proof.Gen.KernelIdeal.Frame
import proofs.«142159_j85186381349438_2_alg».proof.Proof.Gen.ReferenceIdeal
import proofs.«142159_j85186381349438_2_alg».proof.Proof.Gen.ReferenceIdeal.Run
import proofs.«142159_j85186381349438_2_alg».proof.Proof.Gen.ReferenceIdeal.Read
import proofs.«142159_j85186381349438_2_alg».proof.Proof.Gen.Pre_finite_inputs
import proofs.«142159_j85186381349438_2_alg».proof.Proof.KernelRun
import proofs.«142159_j85186381349438_2_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

set_option maxHeartbeats 4000000 in
/-- The neighbours' sums are one array in both programs: the kernel's host operations before the region and the
    reference's first operations are the same gather and scatter-add of the same two arguments. -/
theorem aggregated_eq (m : (ℓ : Loc Cert.KernelIdeal.nD Cert.KernelIdeal.τ Cert.KernelIdeal.sig) → Buf (Elt Ideal) ℓ)
    (c : Dev Cert.KernelIdeal.nD) :
    Cert.KernelIdeal.HostSide.aggregated m c
      = Cert.ReferenceIdeal.Read.val_main_v13 (F := Ideal)
          (m ((c : Thread Cert.KernelIdeal.nD Cert.KernelIdeal.τ).loc Cert.KernelIdeal.main_arg0))
          (m ((c : Thread Cert.KernelIdeal.nD Cert.KernelIdeal.τ).loc Cert.KernelIdeal.main_arg1)) := by
  unfold Cert.KernelIdeal.HostSide.aggregated
  dsimp only [Cert.KernelIdeal.Gen.V, Cert.KernelIdeal.Gen.V0]
  simp only [Cert.KernelIdeal.Gen.hostOps0, Cert.KernelIdeal.Gen.hostOps0_1, Cert.KernelIdeal.Gen.hostOps0_2,
    Cert.KernelIdeal.Gen.hostOps0_3, Cert.KernelIdeal.Gen.hostOps0_4, List.flatten_cons, List.flatten_nil,
    List.append_nil, List.cons_append, List.nil_append]
  after_results
  rfl

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing: the idealized kernel is the kernel's own text read over the extended reals. -/
theorem preserves : Cert.preserves_Kernel_KernelIdeal := trivial

/-- Both idealized programs end with the node function of the neighbours' sums and the argument arrays in their result:
    the kernel by its run read back, the reference by its generated run and the stage-by-stage reading of its term. -/
theorem algebraic : Cert.algebraic_KernelIdeal_ReferenceIdeal := by
  intro m ρ m' ρ' _ hagree
  refine ⟨_, Cert.KernelIdeal.HostSide.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10⟩ := hagree c
  rw [Cert.ReferenceIdeal.Read.val_main_v88_eq, Cert.ReferenceIdeal.RefValue.ref_eq, h0, h1, h2, h3, h4, h5, h6, h7, h8, h9, h10,
    aggregated_eq]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
